-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S512x2048 : Shape := ⟨2, ![512, 2048]⟩
abbrev S512 : Shape := ⟨1, ![512]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S4x4096x2048 .f32) (main_arg1 : FVec F S512x2048 .f32) (main_arg2 : FVec F S512 .f32) (main_arg3 : FVec F S512x2048 .f32) (main_arg4 : FVec F S512 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_v13 main_v16
-- ==== Kernel.lean ====
abbrev S4x4096x2048 : Shape := ⟨3, ![4, 4096, 2048]⟩
abbrev S512x2048 : Shape := ⟨2, ![512, 2048]⟩
abbrev S512 : Shape := ⟨1, ![512]⟩
abbrev S2048x512 : Shape := ⟨2, ![2048, 512]⟩
abbrev S4x512 : Shape := ⟨2, ![4, 512]⟩
abbrev S4x256x2048 : Shape := ⟨3, ![4, 256, 2048]⟩
abbrev S1x256x2048 : Shape := ⟨3, ![1, 256, 2048]⟩
abbrev S256x2048 : Shape := ⟨2, ![256, 2048]⟩
abbrev S256x512 : Shape := ⟨2, ![256, 512]⟩
abbrev S1x512 : Shape := ⟨2, ![1, 512]⟩
abbrev S_ : Shape := ⟨0, ![]⟩
abbrev S4x4096 : Shape := ⟨2, ![4, 4096]⟩
abbrev S4x256 : Shape := ⟨2, ![4, 256]⟩
abbrev S256 : Shape := ⟨1, ![256]⟩
abbrev S1x256 : Shape := ⟨2, ![1, 256]⟩

abbrev nBuf : Space → Nat
  | .hbm => 14
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S512x2048, .f32⟩
  | .hbm, ⟨2, _⟩ => ⟨S512, .f32⟩
  | .hbm, ⟨3, _⟩ => ⟨S512x2048, .f32⟩
  | .hbm, ⟨4, _⟩ => ⟨S512, .f32⟩
  | .hbm, ⟨5, _⟩ => ⟨S2048x512, .f32⟩
  | .hbm, ⟨6, _⟩ => ⟨S2048x512, .bf16⟩
  | .hbm, ⟨7, _⟩ => ⟨S2048x512, .f32⟩
  | .hbm, ⟨8, _⟩ => ⟨S2048x512, .bf16⟩
  | .hbm, ⟨9, _⟩ => ⟨S4x512, .f32⟩
  | .hbm, ⟨10, _⟩ => ⟨S_, .f32⟩
  | .hbm, ⟨11, _⟩ => ⟨S4x512, .f32⟩
  | .hbm, ⟨12, _⟩ => ⟨S4x512, .f32⟩
  | .hbm, ⟨13, _⟩ => ⟨S4x4096, .f32⟩
  | .local _ .vmem, ⟨0, _⟩ => ⟨S4x256x2048, .f32⟩
  | .local _ .vmem, ⟨1, _⟩ => ⟨S4x256x2048, .f32⟩
  | .local _ .vmem, ⟨2, _⟩ => ⟨S2048x512, .bf16⟩
  | .local _ .vmem, ⟨3, _⟩ => ⟨S512, .f32⟩
  | .local _ .vmem, ⟨4, _⟩ => ⟨S4x512, .f32⟩
  | .local _ .vmem, ⟨5, _⟩ => ⟨S4x256x2048, .f32⟩
  | .local _ .vmem, ⟨6, _⟩ => ⟨S4x256x2048, .f32⟩
  | .local _ .vmem, ⟨7, _⟩ => ⟨S2048x512, .bf16⟩
  | .local _ .vmem, ⟨8, _⟩ => ⟨S512, .f32⟩
  | .local _ .vmem, ⟨9, _⟩ => ⟨S4x512, .f32⟩
  | .local _ .vmem, ⟨10, _⟩ => ⟨S4x256, .f32⟩
  | .local _ .vmem, ⟨11, _⟩ => ⟨S4x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S512x2048_S2048x512_1_0 : S512x2048.Transposes [1, 0] S2048x512
  bitsLt_bf16_f32 : FTy.bits .bf16 < FTy.bits .f32
  inb_S4x512_S4x512_0_0 : ∀ a, (![0, 0] : Fin 2 → Nat) a + S4x512.size a ≤ S4x512.size a
  h_S4x512 : 0 < S4x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  inb_S4x256x2048_S1x256x2048_0_0_0 : ∀ a, (![0, 0, 0] : Fin 3 → Nat) a + S1x256x2048.size a ≤ S4x256x2048.size a
  h_S1x256x2048 : 0 < S1x256x2048.numel
  shapeCasts_S1x256x2048_S256x2048 : S1x256x2048.ShapeCasts S256x2048
  shapeCasts_S512_S1x512 : S512.ShapeCasts S1x512
  broadcasts_S1x512_S256x512 : S1x512.Broadcasts S256x512
  inb_S4x512_S1x512_0_0 : ∀ a, (![0, 0] : Fin 2 → Nat) a + S1x512.size a ≤ S4x512.size a
  h_S1x512 : 0 < S1x512.numel
  shapeCasts_S1x512_S512 : S1x512.ShapeCasts S512
  reduces_S256x512_S512 : S256x512.Reduces [0] S512
  inb_S4x256x2048_S1x256x2048_1_0_0 : ∀ a, (![1, 0, 0] : Fin 3 → Nat) a + S1x256x2048.size a ≤ S4x256x2048.size a
  inb_S4x512_S1x512_1_0 : ∀ a, (![1, 0] : Fin 2 → Nat) a + S1x512.size a ≤ S4x512.size a
  inb_S4x256x2048_S1x256x2048_2_0_0 : ∀ a, (![2, 0, 0] : Fin 3 → Nat) a + S1x256x2048.size a ≤ S4x256x2048.size a
  inb_S4x512_S1x512_2_0 : ∀ a, (![2, 0] : Fin 2 → Nat) a + S1x512.size a ≤ S4x512.size a
  inb_S4x256x2048_S1x256x2048_3_0_0 : ∀ a, (![3, 0, 0] : Fin 3 → Nat) a + S1x256x2048.size a ≤ S4x256x2048.size a
  inb_S4x512_S1x512_3_0 : ∀ a, (![3, 0] : Fin 2 → Nat) a + S1x512.size a ≤ S4x512.size a
  bcast_S_S4x512 : S_.BroadcastsInDim S4x512 (![] : Fin 0 → Fin S4x512.rank)
  shapeCasts_S4x512_S4x512 : S4x512.ShapeCasts S4x512
  slices_S4x512_o0_0_S1x512 : S4x512.Slices ![0, 0] S1x512
  reduces_S256x512_S256 : S256x512.Reduces [1] S256
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  slices_S4x512_o1_0_S1x512 : S4x512.Slices ![1, 0] S1x512
  inb_S4x256_S1x256_1_0 : ∀ a, (![1, 0] : Fin 2 → Nat) a + S1x256.size a ≤ S4x256.size a
  slices_S4x512_o2_0_S1x512 : S4x512.Slices ![2, 0] S1x512
  inb_S4x256_S1x256_2_0 : ∀ a, (![2, 0] : Fin 2 → Nat) a + S1x256.size a ≤ S4x256.size a
  slices_S4x512_o3_0_S1x512 : S4x512.Slices ![3, 0] S1x512
  inb_S4x256_S1x256_3_0 : ∀ a, (![3, 0] : Fin 2 → Nat) a + S1x256.size a ≤ S4x256.size a
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x2048.size a ≤ S4x4096x2048.size a
  hwx0_0 : ∀ i : grid0.Coords, EltTy.bits .f32 = 32 ∨ (Rect.block (s := S4x4096x2048) S4x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x512.size a ≤ S4x512.size a
  hwx0_3 : ∀ i : grid0.Coords, EltTy.bits .f32 = 32 ∨ (Rect.block (s := S4x512) S4x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x2048.size a ≤ S4x4096x2048.size a
  hwx1_0 : ∀ i : grid1.Coords, EltTy.bits .f32 = 32 ∨ (Rect.block (s := S4x4096x2048) S4x256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x512.size a
  hwx1_1 : ∀ i : grid1.Coords, EltTy.bits .bf16 = 32 ∨ (Rect.block (s := S2048x512) S2048x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x512.size a ≤ S4x512.size a
  hwx1_3 : ∀ i : grid1.Coords, EltTy.bits .f32 = 32 ∨ (Rect.block (s := S4x512) S4x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x256.size a ≤ S4x4096.size a
  hwx1_4 : ∀ i : grid1.Coords, EltTy.bits .f32 = 32 ∨ (Rect.block (s := S4x4096) S4x256.size (cc1_transform_4 i) (hinb1_4 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_arg0) S4x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S4x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S4x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S4x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x2048 : Shape := ⟨3, ![4, 4096, 2048]⟩
abbrev S512x2048 : Shape := ⟨2, ![512, 2048]⟩
abbrev S512 : Shape := ⟨1, ![512]⟩
abbrev S4x4096x512 : Shape := ⟨3, ![4, 4096, 512]⟩
abbrev S1x1x512 : Shape := ⟨3, ![1, 1, 512]⟩
abbrev S4x4096x4096 : Shape := ⟨3, ![4, 4096, 4096]⟩
abbrev S_ : Shape := ⟨0, ![]⟩
abbrev S4x4096 : Shape := ⟨2, ![4, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S512x2048, .f32⟩
  | .hbm, ⟨2, _⟩ => ⟨S512, .f32⟩
  | .hbm, ⟨3, _⟩ => ⟨S512x2048, .f32⟩
  | .hbm, ⟨4, _⟩ => ⟨S512, .f32⟩
  | .hbm, ⟨5, _⟩ => ⟨S4x4096x512, .f32⟩
  | .hbm, ⟨6, _⟩ => ⟨S1x1x512, .f32⟩
  | .hbm, ⟨7, _⟩ => ⟨S4x4096x512, .f32⟩
  | .hbm, ⟨8, _⟩ => ⟨S4x4096x512, .f32⟩
  | .hbm, ⟨9, _⟩ => ⟨S4x4096x512, .f32⟩
  | .hbm, ⟨10, _⟩ => ⟨S1x1x512, .f32⟩
  | .hbm, ⟨11, _⟩ => ⟨S4x4096x512, .f32⟩
  | .hbm, ⟨12, _⟩ => ⟨S4x4096x512, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096, .f32⟩
  | .hbm, ⟨19, _⟩ => ⟨S_, .f32⟩
  | .hbm, ⟨20, _⟩ => ⟨S4x4096, .f32⟩
  | .hbm, ⟨21, _⟩ => ⟨S4x4096, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  dot_S4x4096x2048_S512x2048_S4x4096x512_2_1_01_0_n_n_wf : DotDims.WF S4x4096x2048 S512x2048 S4x4096x512 [2] [1] [0, 1] [0] [] []
  dot_S4x4096x512_S4x4096x512_S4x4096x4096_2_2_1_1_0_0_wf : DotDims.WF S4x4096x512 S4x4096x512 S4x4096x4096 [2] [2] [1] [1] [0] [0]

variable [Facts₀]

def dot_S4x4096x2048_S512x2048_S4x4096x512_2_1_01_0_n_n : DotDims S4x4096x2048 S512x2048 S4x4096x512 where
  lhsContracting := [2]
  rhsContracting := [1]
  lhsNonContracting := [0, 1]
  rhsNonContracting := [0]
  lhsBatch := []
  rhsBatch := []
  wf := dot_S4x4096x2048_S512x2048_S4x4096x512_2_1_01_0_n_n_wf
def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf

class Facts : Prop extends Facts₀ where

variable [Facts]
-- ==== Proof.WholeRun.lean ====
/-
  The idealized kernel's whole run, with its result named.

  @main is four stretches: the host's transposes and format changes of the two weight matrices, the first grid
  sweep (the key sums), the host's division by the token count, the second grid sweep (the scores). Every weakly
  fair execution terminates without a fault; the buffer contents at each boundary are a fold from the launch
  memory, and at the last boundary the result buffer holds what the second sweep's write-backs leave, the five
  argument arrays what they held at launch.
-/
import proofs.«162913_j36172214567085_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and the argument arrays as launched. -/
theorem run : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- The last boundary's contents at the result buffer are what the second sweep's write-backs leave in its
    output window's array. -/
theorem result_eq (c : Dev nD) :
    W4 m ρ c (Proc.devRef .tc main_v7) = (dat1 (V3 m ρ) c).arrAt 4 cfg1.N := W4_arr m ρ c 4

end Cert.KernelIdeal.Whole

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.KeyRow.lean ====
/-
  One row of the running key sum, read at an index.

  A tile is 256 consecutive tokens of one batch entry: x is the tile [1, 256, 2048], w the key weights laid out
  [2048, 512] (model axis first), bias the key bias [512]. The projected key of token p in component q is
      key p q = (Σ_d x(0, p, d) · w(d, q)) + bias(q).
  The body adds to the row it finds, prev [1, 512], the tile's sum of projected keys over its 256 tokens:
      row(0, q) = prev(0, q) + Σ_p key p q.
  The body spells this four times (one per batch entry); every copy is this one function of what it loads.
  A change of float format is the identity on extended reals, and the matrix product into a zero accumulator is the plain sum.
-/
import proofs.«162913_j36172214567085_1_alg».proof.Proof.Gen.KernelIdeal.Skeleton
import proofs.«162913_j36172214567085_1_alg».proof.Proof.LibPlainDot
import Idealize.ShloMosaic.Lib.ValueLayout
import Idealize.ShloMosaic.Lib.ValueIdx
import Idealize.ShloMosaic.PureOps.Ideal.Laws

noncomputable section

namespace Cert.KernelIdeal.KeyRow

open Cert.KernelIdeal Cert.KernelIdeal.Gen Idealize.ShloMosaic Idealize.ShloMosaic.ValueIdx

/-- The projected key of token p of a tile, component q. -/
def key (w : FVec Ideal S2048x512 .bf16) (bias : Vec Ideal S512 .f32) (x : Vec Ideal S1x256x2048 .f32)
    (p : Fin 256) (q : Fin 512) : EReal :=
  (∑ d : Fin 2048, x (ix3 (0 : Fin 1) p d) * w (ix2 d q)) + bias (ix1 q)

/-- The row the body stores: what it found plus the tile's sum of projected keys. -/
def rowAcc (w : FVec Ideal S2048x512 .bf16) (bias : Vec Ideal S512 .f32) (x : Vec Ideal S1x256x2048 .f32)
    (prev : Vec Ideal S1x512 .f32) (q : Fin 512) : EReal :=
  prev (ix2 (0 : Fin 1) q) + ∑ p : Fin 256, key w bias x p q

/-- The reduced axis put back: the column q of a [256, 512] array at row p. -/
theorem lift_col (q : Fin 512) (p : Fin 256) :
    reduces_S256x512_S512.lift (ix1 q) p = (ix2 p q : S256x512.Idx) :=
  funext fun a => Fin.ext (by match a with | ⟨0, _⟩ => rfl | ⟨1, _⟩ => rfl)

/-- The projected tile plus bias, at (p, q). -/
theorem proj_apply (w : FVec Ideal S2048x512 .bf16) (bias : Vec Ideal S512 .f32) (x : Vec Ideal S1x256x2048 .f32)
    (p : Fin 256) (q : Fin 512) :
    addf (matmul dot_S256x2048_S2048x512_S256x512_1_0_0_1_n_n none
            (truncf .bf16 (shapeCast S256x2048 x shapeCasts_S1x256x2048_S256x2048) bitsLt_bf16_f32) w
            (constant (F := Ideal) S256x512 .f32 0x00000000#32))
         (broadcastTo S256x512 (shapeCast S1x512 bias shapeCasts_S512_S1x512) broadcasts_S1x512_S256x512) (ix2 p q)
      = key w bias x p q := by
  rw [addf_apply]
  refine congrArg₂ (· + ·) ?_ ?_
  · refine (Cert.Lib.matmul_zero_apply dot_S256x2048_S2048x512_S256x512_1_0_0_1_n_n.wf none _ w p q).trans ?_
    refine Finset.sum_congr rfl fun d _ => ?_
    rw [truncf_apply, shapeCast_1ab_ab_apply]
  · rw [broadcastTo_1b_ab_apply _ _ p q, shapeCast_a_1a_apply _ _ (0 : Fin 1) q]

/-- The stored row over the loaded tile, weights, bias and found row, at (0, q). -/
theorem row_apply (w : FVec Ideal S2048x512 .bf16) (bias : Vec Ideal S512 .f32) (x : Vec Ideal S1x256x2048 .f32)
    (prev : Vec Ideal S1x512 .f32) (q : Fin 512) :
    shapeCast S1x512
      (addf (shapeCast S512 prev shapeCasts_S1x512_S512)
        (multiReduction .add [0] S512
          (addf (matmul dot_S256x2048_S2048x512_S256x512_1_0_0_1_n_n none
                  (truncf .bf16 (shapeCast S256x2048 x shapeCasts_S1x256x2048_S256x2048) bitsLt_bf16_f32) w
                  (constant (F := Ideal) S256x512 .f32 0x00000000#32))
                (broadcastTo S256x512 (shapeCast S1x512 bias shapeCasts_S512_S1x512) broadcasts_S1x512_S256x512))
          0x00000000#32 reduces_S256x512_S512 (.inl rfl) rfl))
      shapeCasts_S512_S1x512 (ix2 (0 : Fin 1) q)
      = rowAcc w bias x prev q := by
  rw [shapeCast_a_1a_apply _ _ (0 : Fin 1) q, addf_apply, shapeCast_1a_a_apply _ _ q]
  refine congrArg (prev (ix2 (0 : Fin 1) q) + ·) ?_
  refine (Ideal.multiReduction_add_single _ 0x00000000#32 reduces_S256x512_S512 (.inl rfl) rfl (ix1 q)).trans ?_
  refine Finset.sum_congr rfl fun p _ => ?_
  exact (congrArg _ (lift_col q p)).trans (proj_apply w bias x p q)

theorem pay1_apply (w : FVec Ideal S2048x512 .bf16) (bias : Vec Ideal S512 .f32) (x : Vec Ideal S1x256x2048 .f32)
    (prev : Vec Ideal S1x512 .f32) (q : Fin 512) :
    k0_pay1 (F := Ideal) w bias x prev (ix2 (0 : Fin 1) q) = rowAcc w bias x prev q :=
  row_apply w bias x prev q

theorem pay2_apply (w : FVec Ideal S2048x512 .bf16) (bias : Vec Ideal S512 .f32) (x : Vec Ideal S1x256x2048 .f32)
    (prev : Vec Ideal S1x512 .f32) (q : Fin 512) :
    k0_pay2 (F := Ideal) w bias x prev (ix2 (0 : Fin 1) q) = rowAcc w bias x prev q :=
  row_apply w bias x prev q

/-- The weights' cast to their own shape changes nothing. -/
theorem pay4_eq (w : Vec Ideal S2048x512 .bf16) : k0_pay4 (F := Ideal) w = w := shapeCast_self _ _

theorem pay5_apply (w : Vec Ideal S2048x512 .bf16) (bias : Vec Ideal S512 .f32) (x : Vec Ideal S1x256x2048 .f32)
    (prev : Vec Ideal S1x512 .f32) (q : Fin 512) :
    k0_pay5 (F := Ideal) w bias x prev (ix2 (0 : Fin 1) q) = rowAcc w bias x prev q :=
  (row_apply (k0_pay4 w) bias x prev q).trans (by rw [pay4_eq])

theorem pay6_apply (w : Vec Ideal S2048x512 .bf16) (bias : Vec Ideal S512 .f32) (x : Vec Ideal S1x256x2048 .f32)
    (prev : Vec Ideal S1x512 .f32) (q : Fin 512) :
    k0_pay6 (F := Ideal) w bias x prev (ix2 (0 : Fin 1) q) = rowAcc w bias x prev q :=
  (row_apply (k0_pay4 w) bias x prev q).trans (by rw [pay4_eq])

end Cert.KernelIdeal.KeyRow

end
-- ==== Proof.LibRowStore.lean ====
/-
  A rank-two block [m, n] written and read one row [1, n] at a time, and a rank-three block [B, m, n] read one slab
  [1, m, n] at a time. Independent of any program.

  Row k of the block is the unit-stride rectangle at offset (k, 0) of extent (1, n): its local index (0, q) sits at the
  block's index (k, q). So, of a list of stores (newest first), a store of row k decides the contents at (k, q) — its
  payload at (0, q) — and leaves every other row to the older stores; a load of row k reads the contents at (k, q);
  and a load of row k, after a store that filled the whole block, reads that fill's row k whatever was stored before.
-/
import Idealize.ShloMosaic.Lib.Pipeline.Value
import Idealize.ShloMosaic.Lib.Pipeline.FrameBody
import Idealize.ShloMosaic.Lib.ValueIdx

noncomputable section

namespace Cert.Lib

open Idealize.ShloMosaic Idealize.ShloMosaic.ValueIdx

variable {m n : Nat} {Val : EltTy → Type} {e : EltTy}

/-- Row k's local index (0, q) is the block's index (k, q). -/
theorem row_idx (k : Nat) (hk : k < m)
    (inb : ∀ a, (![k, 0] : Fin 2 → Nat) a + (⟨2, ![1, n]⟩ : Shape).size a ≤ (⟨2, ![m, n]⟩ : Shape).size a) (q : Fin n) :
    (Rect.unit (s := (⟨2, ![m, n]⟩ : Shape)) ![k, 0] (⟨2, ![1, n]⟩ : Shape).size inb).idx (ix2 (0 : Fin 1) q)
      = ix2 (⟨k, hk⟩ : Fin m) q :=
  funext fun a => Fin.ext (by
    match a with
    | ⟨0, _⟩ => show k + 1 * 0 = k; omega
    | ⟨1, _⟩ => show 0 + 1 * q.val = q.val; omega)

/-- A load of row k reads, at (0, q), the contents at (k, q). -/
theorem ld_row (X : (⟨2, ![m, n]⟩ : Shape).Idx → Val e) (k : Nat) (hk : k < m)
    (inb : ∀ a, (![k, 0] : Fin 2 → Nat) a + (⟨2, ![1, n]⟩ : Shape).size a ≤ (⟨2, ![m, n]⟩ : Shape).size a) (q : Fin n) :
    View.ld X (Rect.unit (s := (⟨2, ![m, n]⟩ : Shape)) ![k, 0] (⟨2, ![1, n]⟩ : Shape).size inb) (ix2 (0 : Fin 1) q)
      = X (ix2 (⟨k, hk⟩ : Fin m) q) :=
  congrArg X (row_idx k hk inb q)

/-- A load of slab b of a [B, m, n] block reads, at (0, p, d), the contents at (b, p, d). -/
theorem ld_slab {B : Nat} (X : (⟨3, ![B, m, n]⟩ : Shape).Idx → Val e) (b : Nat) (hb : b < B)
    (inb : ∀ a, (![b, 0, 0] : Fin 3 → Nat) a + (⟨3, ![1, m, n]⟩ : Shape).size a ≤ (⟨3, ![B, m, n]⟩ : Shape).size a)
    (p : Fin m) (d : Fin n) :
    View.ld X (Rect.unit (s := (⟨3, ![B, m, n]⟩ : Shape)) ![b, 0, 0] (⟨3, ![1, m, n]⟩ : Shape).size inb)
        (ix3 (0 : Fin 1) p d)
      = X (ix3 (⟨b, hb⟩ : Fin B) p d) :=
  congrArg X (funext fun a => Fin.ext (by
    match a with
    | ⟨0, _⟩ => show b + 1 * 0 = b; omega
    | ⟨1, _⟩ => show 0 + 1 * p.val = p.val; omega
    | ⟨2, _⟩ => show 0 + 1 * d.val = d.val; omega))

variable [∀ e, Nonempty (Val e)]

/-- When the newest store is row k, the contents at (k, q) are its payload at (0, q). -/
theorem canon_row_hit (k : Nat) (hk : k < m)
    (inb : ∀ a, (![k, 0] : Fin 2 → Nat) a + (⟨2, ![1, n]⟩ : Shape).size a ≤ (⟨2, ![m, n]⟩ : Shape).size a)
    (w : (⟨2, ![1, n]⟩ : Shape).Idx → Val e) (L : List (View.Piece Val (⟨2, ![m, n]⟩ : Shape) e)) (q : Fin n) :
    View.canon ((⟨Rect.unit (s := (⟨2, ![m, n]⟩ : Shape)) ![k, 0] (⟨2, ![1, n]⟩ : Shape).size inb, w⟩ :
        View.Piece Val (⟨2, ![m, n]⟩ : Shape) e) :: L) (ix2 (⟨k, hk⟩ : Fin m) q)
      = w (ix2 (0 : Fin 1) q) :=
  (congrArg (View.canon _) (row_idx k hk inb q).symm).trans
    (View.canon_cons_emb (Rect.unit (s := (⟨2, ![m, n]⟩ : Shape)) ![k, 0] (⟨2, ![1, n]⟩ : Shape).size inb) w L
      (ix2 (0 : Fin 1) q))

/-- When the newest store is row k, the contents at another row are the older stores'. -/
theorem canon_row_miss (k : Nat)
    (inb : ∀ a, (![k, 0] : Fin 2 → Nat) a + (⟨2, ![1, n]⟩ : Shape).size a ≤ (⟨2, ![m, n]⟩ : Shape).size a)
    (w : (⟨2, ![1, n]⟩ : Shape).Idx → Val e) (L : List (View.Piece Val (⟨2, ![m, n]⟩ : Shape) e))
    (b : Fin m) (hb : b.val ≠ k) (q : Fin n) :
    View.canon ((⟨Rect.unit (s := (⟨2, ![m, n]⟩ : Shape)) ![k, 0] (⟨2, ![1, n]⟩ : Shape).size inb, w⟩ :
        View.Piece Val (⟨2, ![m, n]⟩ : Shape) e) :: L) (ix2 b q)
      = View.canon L (ix2 b q) :=
  View.canon_cons_of_not_mem _ L (fun hm => by
    have hm' : ix2 b q ∈ (Rect.unit (s := (⟨2, ![m, n]⟩ : Shape)) ![k, 0] (⟨2, ![1, n]⟩ : Shape).size inb).set := hm
    have h0 : k ≤ b.val ∧ b.val < k + 1 := (Rect.mem_set_unit.mp hm') (0 : Fin 2)
    omega)

/-- A load of row k, when the newest store filled the whole block with P, reads P's row k. -/
theorem readCov_row_of_fill {sig : RefSig} {κ : Kind} {sp : Space} (v : View sig κ sp (⟨2, ![m, n]⟩ : Shape) e)
    (P : (⟨2, ![m, n]⟩ : Shape).Idx → Val e) (L : List (View.Piece Val (⟨2, ![m, n]⟩ : Shape) e))
    (inbP : ∀ a, (![0, 0] : Fin 2 → Nat) a + (⟨2, ![m, n]⟩ : Shape).size a ≤ (⟨2, ![m, n]⟩ : Shape).size a)
    (k : Nat)
    (inb : ∀ a, (![k, 0] : Fin 2 → Nat) a + (⟨2, ![1, n]⟩ : Shape).size a ≤ (⟨2, ![m, n]⟩ : Shape).size a) :
    v.readCov ((⟨Rect.unit (s := (⟨2, ![m, n]⟩ : Shape)) ![0, 0] (⟨2, ![m, n]⟩ : Shape).size inbP, P⟩ :
        View.Piece Val (⟨2, ![m, n]⟩ : Shape) e) :: L)
        (Rect.unit (s := (⟨2, ![m, n]⟩ : Shape)) ![k, 0] (⟨2, ![1, n]⟩ : Shape).size inb).toLoadRect
      = View.ld P (Rect.unit (s := (⟨2, ![m, n]⟩ : Shape)) ![k, 0] (⟨2, ![1, n]⟩ : Shape).size inb) := by
  have hz : (![0, 0] : Fin 2 → Nat) = fun _ => 0 := funext fun a => by fin_cases a <;> rfl
  rw [View.readCov_eq_canon_ld _ _ _ (fun y => ⟨_, List.mem_cons_self, View.mem_set_unit_zero hz inbP y⟩),
    View.canon_cons_unit_zero hz inbP P L]

end Cert.Lib

end
-- ==== Proof.KeyBlock.lean ====
/-
  What one grid point of the first sweep leaves in the key-sum block [4, 512], read at an index.

  The block has one row per batch entry. At a point the body sees x0, the tile of 256 tokens of all four batch entries
  [4, 256, 2048], the key weights x1 [2048, 512] and the key bias x2 [512]. The tile's contribution to row b is
      tileSum b q = Σ_p ((Σ_d x0(b, p, d) · x1(d, q)) + x2(q)),
  the sum over the tile's tokens of their projected keys.
  At a later point the body finds the running block xo and leaves  xo(b, q) + tileSum b q  (each row is stored once, and
  each row's load reads what was found, since the rows are disjoint). At the first point it first fills the block
  with zeros, and each row's load reads that fill, so it leaves  0 + tileSum b q.
-/
import proofs.«162913_j36172214567085_1_alg».proof.Proof.Gen.KernelIdeal.Frame
import proofs.«162913_j36172214567085_1_alg».proof.Proof.KeyRow
import proofs.«162913_j36172214567085_1_alg».proof.Proof.LibRowStore
import Idealize.ShloMosaic.Lib.Pipeline.Value
import Idealize.ShloMosaic.Lib.Pipeline.RowLoads
import Idealize.ShloMosaic.Lib.Tactic

set_option maxRecDepth 16384

noncomputable section

namespace Cert.KernelIdeal.KeyBlock

open Cert.KernelIdeal Cert.KernelIdeal.Gen Cert.KernelIdeal.KeyRow
open Idealize.ShloMosaic Idealize.ShloMosaic.TcCoe Idealize.ShloMosaic.ValueIdx Idealize.SL.Sem

/-- Batch entry b's projected keys summed over the tile's 256 tokens, component q. -/
def tileSum (x0 : Vec Ideal S4x256x2048 .f32) (x1 : Vec Ideal S2048x512 .bf16) (x2 : Vec Ideal S512 .f32)
    (b : Fin 4) (q : Fin 512) : EReal :=
  ∑ p : Fin 256, ((∑ d : Fin 2048, x0 (ix3 b p d) * x1 (ix2 d q)) + x2 (ix1 q))

theorem hz2 : (![0, 0] : Fin 2 → Nat) = fun _ => 0 := funext fun a => by fin_cases a <;> rfl
theorem hz1 : (![0] : Fin 1 → Nat) = fun _ => 0 := funext fun a => by fin_cases a; rfl

/-- A stored row over what the body loads: the whole weights, the whole bias, slab k of the tile, and any found
    row. -/
theorem rowAcc_loads {a1 : Memref sig .tc .vmem S4x256x2048 .f32} (h1 : a1.IsWhole)
    {a2 : Memref sig .tc .vmem S2048x512 .bf16} (h2 : a2.IsWhole) {a3 : Memref sig .tc .vmem S512 .f32} (h3 : a3.IsWhole)
    (x0 : Vec Ideal S4x256x2048 .f32) (x1 : Vec Ideal S2048x512 .bf16) (x2 : Vec Ideal S512 .f32)
    (k : Nat) (hk : k < 4)
    (inbW : ∀ a, (![0, 0] : Fin 2 → Nat) a + S2048x512.size a ≤ S2048x512.size a)
    (inbB : ∀ a, (![0] : Fin 1 → Nat) a + S512.size a ≤ S512.size a)
    (inbS : ∀ a, (![k, 0, 0] : Fin 3 → Nat) a + S1x256x2048.size a ≤ S4x256x2048.size a)
    (prev : Vec Ideal S1x512 .f32) (q : Fin 512) :
    rowAcc (View.readAt (Elt Ideal) a2.view (Rect.unit (s := S2048x512) ![0, 0] S2048x512.size inbW).toLoadRect (h2.unread x1))
        (View.readAt (Elt Ideal) a3.view (Rect.unit (s := S512) ![0] S512.size inbB).toLoadRect (h3.unread x2))
        (View.readAt (Elt Ideal) a1.view (Rect.unit (s := S4x256x2048) ![k, 0, 0] S1x256x2048.size inbS).toLoadRect (h1.unread x0)) prev q
      = prev (ix2 (0 : Fin 1) q) + tileSum x0 x1 x2 ⟨k, hk⟩ q := by
  unfold rowAcc key tileSum
  simp only [View.readAt_eq_ld, h1.read_unread, h2.read_unread, h3.read_unread]
  rw [View.ld_unit_zero (S := S2048x512) hz2 inbW, View.ld_unit_zero (S := S512) hz1 inbB]
  refine congrArg _ (Finset.sum_congr rfl fun p _ => congrArg (· + _) (Finset.sum_congr rfl fun d _ => ?_))
  rw [Cert.Lib.ld_slab x0 k hk inbS p d]

/-- A load of row k of the found block reads it at (k, q). -/
theorem found_row {a4 : Memref sig .tc .vmem S4x512 .f32} (h4 : a4.IsWhole) (xo : Vec Ideal S4x512 .f32)
    (k : Nat) (hk : k < 4) (inbR : ∀ a, (![k, 0] : Fin 2 → Nat) a + S1x512.size a ≤ S4x512.size a) (q : Fin 512) :
    View.readAt (Elt Ideal) a4.view (Rect.unit (s := S4x512) ![k, 0] S1x512.size inbR).toLoadRect (h4.unread xo) (ix2 (0 : Fin 1) q)
      = xo (ix2 (⟨k, hk⟩ : Fin 4) q) := by
  rw [View.readAt_eq_ld, h4.read_unread]
  exact Cert.Lib.ld_row xo k hk inbR q

/-- A LATER POINT: the found block plus the tile's sums. -/
theorem out_B_apply (c : Dev nD) (i : grid0.Coords) (a1 : Memref sig .tc .vmem S4x256x2048 .f32) (h1 : a1.IsWhole)
    (a2 : Memref sig .tc .vmem S2048x512 .bf16) (h2 : a2.IsWhole) (a3 : Memref sig .tc .vmem S512 .f32) (h3 : a3.IsWhole)
    (a4 : Memref sig .tc .vmem S4x512 .f32) (h4 : a4.IsWhole) (hc : ¬cond0_0 i)
    (x0 : Vec Ideal S4x256x2048 .f32) (x1 : Vec Ideal S2048x512 .bf16) (x2 : Vec Ideal S512 .f32)
    (xo : Vec Ideal S4x512 .f32) (b : Fin 4) (q : Fin 512) :
    out0_B_3 (F := Ideal) c i a1 h1 a2 h2 a3 h3 a4 h4 hc x0 x1 x2 xo (ix2 b q) = xo (ix2 b q) + tileSum x0 x1 x2 b q := by
  unfold out0_B_3
  rw [View.read_writes_eq_canon _ _ _ (cover0_B_3 c i a1 h1 a2 h2 a3 h3 a4 h4 hc x0 x1 x2 xo)]
  unfold kernelRun0_B
  dsimp only
  sl_unfold_words
  match b with
  | ⟨0, hb⟩ =>
    refine (Cert.Lib.canon_row_miss 3 _ _ _ ⟨0, hb⟩ (by show (0 : ℕ) ≠ _; decide) q).trans ?_
    refine (Cert.Lib.canon_row_miss 2 _ _ _ ⟨0, hb⟩ (by show (0 : ℕ) ≠ _; decide) q).trans ?_
    refine (Cert.Lib.canon_row_miss 1 _ _ _ ⟨0, hb⟩ (by show (0 : ℕ) ≠ _; decide) q).trans ?_
    refine (Cert.Lib.canon_row_hit 0 hb _ _ _ q).trans ?_
    refine (pay5_apply _ _ _ _ q).trans ?_
    refine (rowAcc_loads h1 h2 h3 x0 x1 x2 0 hb _ _ _ _ q).trans ?_
    exact congrArg (· + _) (found_row h4 xo 0 hb _ q)
  | ⟨1, hb⟩ =>
    refine (Cert.Lib.canon_row_miss 3 _ _ _ ⟨1, hb⟩ (by show (1 : ℕ) ≠ _; decide) q).trans ?_
    refine (Cert.Lib.canon_row_miss 2 _ _ _ ⟨1, hb⟩ (by show (1 : ℕ) ≠ _; decide) q).trans ?_
    refine (Cert.Lib.canon_row_hit 1 hb _ _ _ q).trans ?_
    refine (pay6_apply _ _ _ _ q).trans ?_
    refine (rowAcc_loads h1 h2 h3 x0 x1 x2 1 hb _ _ _ _ q).trans ?_
    exact congrArg (· + _) (found_row h4 xo 1 hb _ q)
  | ⟨2, hb⟩ =>
    refine (Cert.Lib.canon_row_miss 3 _ _ _ ⟨2, hb⟩ (by show (2 : ℕ) ≠ _; decide) q).trans ?_
    refine (Cert.Lib.canon_row_hit 2 hb _ _ _ q).trans ?_
    refine (pay1_apply _ _ _ _ q).trans ?_
    rw [pay4_eq]
    refine (rowAcc_loads h1 h2 h3 x0 x1 x2 2 hb _ _ _ _ q).trans ?_
    exact congrArg (· + _) (found_row h4 xo 2 hb _ q)
  | ⟨3, hb⟩ =>
    refine (Cert.Lib.canon_row_hit 3 hb _ _ _ q).trans ?_
    refine (pay2_apply _ _ _ _ q).trans ?_
    rw [pay4_eq]
    refine (rowAcc_loads h1 h2 h3 x0 x1 x2 3 hb _ _ _ _ q).trans ?_
    exact congrArg (· + _) (found_row h4 xo 3 hb _ q)

/-- The zero fill, at any index, is the extended real 0. -/
theorem fill_apply (j : S4x512.Idx) : k0_pay3 (F := Ideal) j = 0 := by
  show Ideal.ofBits .f32 0x00000000#32 = 0
  exact Ideal.ofBits_zero_f32

/-- A load of row k straight after the fill reads zeros. -/
theorem load_after_fill {a4 : Memref sig .tc .vmem S4x512 .f32} (L : List (View.Piece (Elt Ideal) S4x512 .f32))
    (inbP : ∀ a, (![0, 0] : Fin 2 → Nat) a + S4x512.size a ≤ S4x512.size a)
    (k : Nat) (hk : k < 4) (inbR : ∀ a, (![k, 0] : Fin 2 → Nat) a + S1x512.size a ≤ S4x512.size a) (q : Fin 512) :
    a4.view.readCov ((⟨Rect.unit (s := S4x512) ![0, 0] S4x512.size inbP, k0_pay3 (F := Ideal)⟩ :
        View.Piece (Elt Ideal) S4x512 .f32) :: L)
      (Rect.unit (s := S4x512) ![k, 0] S1x512.size inbR).toLoadRect (ix2 (0 : Fin 1) q) = 0 :=
  (congrFun (Cert.Lib.readCov_row_of_fill (Val := Elt Ideal) (e := .f32) a4.view (k0_pay3 (F := Ideal)) L inbP k inbR)
      (ix2 (0 : Fin 1) q)).trans
    ((Cert.Lib.ld_row (Val := Elt Ideal) (e := .f32) (k0_pay3 (F := Ideal)) k hk inbR q).trans (fill_apply _))

/-- THE FIRST POINT: the tile's sums over a zero block. -/
theorem out_A_apply (c : Dev nD) (i : grid0.Coords) (a1 : Memref sig .tc .vmem S4x256x2048 .f32) (h1 : a1.IsWhole)
    (a2 : Memref sig .tc .vmem S2048x512 .bf16) (h2 : a2.IsWhole) (a3 : Memref sig .tc .vmem S512 .f32) (h3 : a3.IsWhole)
    (a4 : Memref sig .tc .vmem S4x512 .f32) (h4 : a4.IsWhole) (hc : cond0_0 i)
    (x0 : Vec Ideal S4x256x2048 .f32) (x1 : Vec Ideal S2048x512 .bf16) (x2 : Vec Ideal S512 .f32)
    (b : Fin 4) (q : Fin 512) :
    out0_A_3 (F := Ideal) c i a1 h1 a2 h2 a3 h3 a4 h4 hc x0 x1 x2 (ix2 b q) = tileSum x0 x1 x2 b q := by
  unfold out0_A_3
  rw [View.read_writes_eq_canon _ _ _ (cover0_A_3 c i a1 h1 a2 h2 a3 h3 a4 h4 hc x0 x1 x2)]
  unfold kernelRun0_A
  dsimp only
  sl_unfold_words
  match b with
  | ⟨0, hb⟩ =>
    refine (Cert.Lib.canon_row_miss 3 _ _ _ ⟨0, hb⟩ (by show (0 : ℕ) ≠ _; decide) q).trans ?_
    refine (Cert.Lib.canon_row_miss 2 _ _ _ ⟨0, hb⟩ (by show (0 : ℕ) ≠ _; decide) q).trans ?_
    refine (Cert.Lib.canon_row_miss 1 _ _ _ ⟨0, hb⟩ (by show (0 : ℕ) ≠ _; decide) q).trans ?_
    refine (Cert.Lib.canon_row_hit 0 hb _ _ _ q).trans ?_
    refine (pay5_apply _ _ _ _ q).trans ?_
    refine (rowAcc_loads h1 h2 h3 x0 x1 x2 0 hb _ _ _ _ q).trans ?_
    refine (congrArg (· + _) ?_).trans (zero_add _)
    exact load_after_fill [] _ 0 hb _ q
  | ⟨1, hb⟩ =>
    refine (Cert.Lib.canon_row_miss 3 _ _ _ ⟨1, hb⟩ (by show (1 : ℕ) ≠ _; decide) q).trans ?_
    refine (Cert.Lib.canon_row_miss 2 _ _ _ ⟨1, hb⟩ (by show (1 : ℕ) ≠ _; decide) q).trans ?_
    refine (Cert.Lib.canon_row_hit 1 hb _ _ _ q).trans ?_
    refine (pay6_apply _ _ _ _ q).trans ?_
    refine (rowAcc_loads h1 h2 h3 x0 x1 x2 1 hb _ _ _ _ q).trans ?_
    refine (congrArg (· + _) ?_).trans (zero_add _)
    refine (congrFun (View.readCov_cons_of_rows_disjoint a4.view 0 1 (Or.inl (by decide)) _ _ _ _) (ix2 (0 : Fin 1) q)).trans ?_
    exact load_after_fill [] _ 1 hb _ q
  | ⟨2, hb⟩ =>
    refine (Cert.Lib.canon_row_miss 3 _ _ _ ⟨2, hb⟩ (by show (2 : ℕ) ≠ _; decide) q).trans ?_
    refine (Cert.Lib.canon_row_hit 2 hb _ _ _ q).trans ?_
    refine (pay1_apply _ _ _ _ q).trans ?_
    rw [pay4_eq]
    refine (rowAcc_loads h1 h2 h3 x0 x1 x2 2 hb _ _ _ _ q).trans ?_
    refine (congrArg (· + _) ?_).trans (zero_add _)
    refine (congrFun (View.readCov_cons_of_rows_disjoint a4.view 1 2 (Or.inl (by decide)) _ _ _ _) (ix2 (0 : Fin 1) q)).trans ?_
    refine (congrFun (View.readCov_cons_of_rows_disjoint a4.view 0 2 (Or.inl (by decide)) _ _ _ _) (ix2 (0 : Fin 1) q)).trans ?_
    exact load_after_fill [] _ 2 hb _ q
  | ⟨3, hb⟩ =>
    refine (Cert.Lib.canon_row_hit 3 hb _ _ _ q).trans ?_
    refine (pay2_apply _ _ _ _ q).trans ?_
    rw [pay4_eq]
    refine (rowAcc_loads h1 h2 h3 x0 x1 x2 3 hb _ _ _ _ q).trans ?_
    refine (congrArg (· + _) ?_).trans (zero_add _)
    refine (congrFun (View.readCov_cons_of_rows_disjoint a4.view 2 3 (Or.inl (by decide)) _ _ _ _) (ix2 (0 : Fin 1) q)).trans ?_
    refine (congrFun (View.readCov_cons_of_rows_disjoint a4.view 1 3 (Or.inl (by decide)) _ _ _ _) (ix2 (0 : Fin 1) q)).trans ?_
    refine (congrFun (View.readCov_cons_of_rows_disjoint a4.view 0 3 (Or.inl (by decide)) _ _ _ _) (ix2 (0 : Fin 1) q)).trans ?_
    exact load_after_fill [] _ 3 hb _ q

end Cert.KernelIdeal.KeyBlock

end
-- ==== Proof.LibTileSum.lean ====
/-
  Two small facts about sums and columns, independent of any program.

  A sum over the first m·n naturals can be taken tile by tile: n consecutive tiles of m positions each, tile s holding
  the positions m·s, m·s + 1, …, m·s + (m − 1). Only commutativity and associativity of the addition are used, so the
  fact holds in every commutative additive monoid — the extended reals included, infinities and all.

  A column of shape [a, 1] cast to the vector shape [a] keeps the row-major order, so the vector's entry at i is the
  column's entry at (i, 0).
-/
import Idealize.ShloMosaic.Lib.ValueIdx
import Idealize.ShloMosaic.Lib.Pipeline.Value

noncomputable section

namespace Cert.Lib

open Idealize.ShloMosaic Idealize.ShloMosaic.ValueIdx

/-- The first m·n naturals, summed tile by tile. -/
theorem sum_range_tiles {β : Type*} [AddCommMonoid β] (g : ℕ → β) (m : ℕ) : ∀ n : ℕ,
    ∑ s ∈ Finset.range n, ∑ q ∈ Finset.range m, g (m * s + q) = ∑ k ∈ Finset.range (m * n), g k
  | 0 => by simp
  | n + 1 => by
    rw [Finset.sum_range_succ, sum_range_tiles g m n, Nat.mul_succ, Finset.sum_range_add]

/-- The same with each tile's positions and the whole range as finite index types. -/
theorem sum_fin_tiles {β : Type*} [AddCommMonoid β] (g : ℕ → β) (m n : ℕ) {N : ℕ} (hN : m * n = N) :
    ∑ s ∈ Finset.range n, ∑ q : Fin m, g (m * s + q.val) = ∑ k : Fin N, g k.val := by
  subst hN
  rw [← Finset.sum_range (fun k => g k), ← sum_range_tiles g m n]
  exact Finset.sum_congr rfl fun s _ => (Finset.sum_range (fun q => g (m * s + q))).symm

variable {α : Type}

/-- A column [a, 1] cast to the vector shape [a] reads, at i, the column's entry at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib

end
-- ==== Proof.KeySum.lean ====
/-
  The first sweep's result: the projected keys of each batch entry summed over all its tokens.

  Point t of the sweep sees tokens 256·t … 256·t + 255 of every batch entry (the tile), the whole key weights and the
  whole key bias. By induction on the point, the block the body leaves after point n is the sum, over the points
  0 … n and over each tile's 256 tokens, of the projected keys: the first point leaves its tile's sums, every later
  point adds its own to what it finds. Sixteen tiles of 256 tokens are the 4096 tokens, so after the last point the
  block holds the sum over all tokens; it is written back once, after the last point, and is the whole result array.
-/
import proofs.«162913_j36172214567085_1_alg».proof.Proof.Gen.KernelIdeal.Frame
import proofs.«162913_j36172214567085_1_alg».proof.Proof.KeyBlock
import proofs.«162913_j36172214567085_1_alg».proof.Proof.LibTileSum
import Idealize.ShloMosaic.Lib.Pipeline.Value

set_option maxRecDepth 16384

noncomputable section

namespace Cert.KernelIdeal.KeySum

open Cert.KernelIdeal Cert.KernelIdeal.Gen Cert.KernelIdeal.KeyBlock
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Token k of batch entry b projected through the transposed key weights Wt [2048, 512] and the bias, component q;
    zero past the last token (so that it is a function of a natural number). -/
def keyAt (H : S4x4096x2048.Idx → EReal) (Wt : S2048x512.Idx → EReal) (bk : S512.Idx → EReal) (b : Fin 4) (q : Fin 512)
    (k : ℕ) : EReal :=
  if h : k < 4096 then (∑ d : Fin 2048, H (ix3 b (⟨k, h⟩ : Fin 4096) d) * Wt (ix2 d q)) + bk (ix1 q) else 0

/-- The sum over the points 0 … n of each tile's projected keys. -/
def partialSum (H : S4x4096x2048.Idx → EReal) (Wt : S2048x512.Idx → EReal) (bk : S512.Idx → EReal) (n : ℕ)
    (b : Fin 4) (q : Fin 512) : EReal :=
  ∑ s ∈ Finset.range (n + 1), ∑ p : Fin 256, keyAt H Wt bk b q (256 * s + p.val)

/-- The sum over all 4096 tokens, as an array over [4, 512]. -/
def total (H : S4x4096x2048.Idx → EReal) (Wt : S2048x512.Idx → EReal) (bk : S512.Idx → EReal) : S4x512.Idx → EReal :=
  fun j => ∑ k : Fin 4096, ((∑ d : Fin 2048, H (ix3 (j 0) k d) * Wt (ix2 d (j 1))) + bk (ix1 (j 1)))

/-- The windows' block indices at a point: the tile moves along the token axis, the weights and bias stay. -/
theorem idx0 : ∀ t : Fin cfg0.N, win0_0.index t 0 = 0 ∧ win0_0.index t 1 = t.val ∧ win0_0.index t 2 = 0
    ∧ win0_1.index t 0 = 0 ∧ win0_1.index t 1 = 0 ∧ win0_2.index t 0 = 0 :=
  (by decide +kernel : ∀ t : Fin grid0.N, win0_0.index t 0 = 0 ∧ win0_0.index t 1 = t.val ∧ win0_0.index t 2 = 0
    ∧ win0_1.index t 0 = 0 ∧ win0_1.index t 1 = 0 ∧ win0_2.index t 0 = 0)

/-- The tile at point t, at (b, p, d), is the hidden array at token 256·t + p. -/
theorem blk0_apply (c : Dev nD) (t : Fin cfg0.N) (b : Fin 4) (p : Fin 256) (d : Fin 2048)
    (hp : 256 * t.val + p.val < 4096) :
    (iblk0 V c 0 t : Vec Ideal S4x256x2048 .f32) (ix3 b p d)
      = (V c main_arg0 : S4x4096x2048.Idx → EReal) (ix3 b (⟨256 * t.val + p.val, hp⟩ : Fin 4096) d) := by
  unfold iblk0
  rw [View.read_apply]
  show V c main_arg0 _ = V c main_arg0 _
  refine congrArg (V c main_arg0) (funext fun a => Fin.ext ?_)
  match a with
  | ⟨0, _⟩ => show win0_0.index t 0 * 4 + 1 * b.val = b.val; rw [(idx0 t).1]; omega
  | ⟨1, _⟩ => show win0_0.index t 1 * 256 + 1 * p.val = 256 * t.val + p.val; rw [(idx0 t).2.1]; omega
  | ⟨2, _⟩ => show win0_0.index t 2 * 2048 + 1 * d.val = d.val; rw [(idx0 t).2.2.1]; omega

/-- The weights' block at any point is the whole array. -/
theorem blk1_apply (c : Dev nD) (t : Fin cfg0.N) (d : Fin 2048) (q : Fin 512) :
    (iblk0 V c 1 t : Vec Ideal S2048x512 .bf16) (ix2 d q) = (V c main_v1 : S2048x512.Idx → EReal) (ix2 d q) := by
  unfold iblk0
  rw [View.read_apply]
  show V c main_v1 _ = V c main_v1 _
  refine congrArg (V c main_v1) (funext fun a => Fin.ext ?_)
  match a with
  | ⟨0, _⟩ => show win0_1.index t 0 * 2048 + 1 * d.val = d.val; rw [(idx0 t).2.2.2.1]; omega
  | ⟨1, _⟩ => show win0_1.index t 1 * 512 + 1 * q.val = q.val; rw [(idx0 t).2.2.2.2.1]; omega

/-- The bias' block at any point is the whole array. -/
theorem blk2_apply (c : Dev nD) (t : Fin cfg0.N) (q : Fin 512) :
    (iblk0 V c 2 t : Vec Ideal S512 .f32) (ix1 q) = (V c main_arg4 : S512.Idx → EReal) (ix1 q) := by
  unfold iblk0
  rw [View.read_apply]
  show V c main_arg4 _ = V c main_arg4 _
  refine congrArg (V c main_arg4) (funext fun a => Fin.ext ?_)
  match a with
  | ⟨0, _⟩ => show win0_2.index t 0 * 512 + 1 * q.val = q.val; rw [(idx0 t).2.2.2.2.2]; omega

/-- A point's contribution: its tile's 256 tokens' projected keys. -/
theorem tile_eq (c : Dev nD) (t : Fin cfg0.N) (b : Fin 4) (q : Fin 512) :
    tileSum (iblk0 V c 0 t) (iblk0 V c 1 t) (iblk0 V c 2 t) b q
      = ∑ p : Fin 256, keyAt (V c main_arg0) (V c main_v1) (V c main_arg4) b q (256 * t.val + p.val) := by
  have hN : t.val < 16 := lt_of_lt_of_eq t.isLt N_0
  unfold tileSum keyAt
  refine Finset.sum_congr rfl fun p _ => ?_
  have hp : 256 * t.val + p.val < 4096 := by have := p.isLt; omega
  rw [dif_pos hp]
  exact congrArg₂ (· + ·)
    (Finset.sum_congr rfl fun d _ => congrArg₂ (· * ·) (blk0_apply V c t b p d hp) (blk1_apply V c t d q))
    (blk2_apply V c t q)

/-- THE ACCUMULATION: after point n the block holds the sum over the points 0 … n. -/
theorem outsAt_apply (c : Dev nD) : ∀ (n : ℕ) (hn : n < cfg0.N) (b : Fin 4) (q : Fin 512),
    outsAt0 (F := Ideal) V c n hn (ix2 b q) = partialSum (V c main_arg0) (V c main_v1) (V c main_arg4) n b q
  | 0, hn, b, q => by
    refine (congrFun (outsAt0_A V c ⟨0, hn⟩ (Nat.zero_mod _)) (ix2 b q)).trans ?_
    refine (out_A_apply c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) ((hcond0_0 ⟨0, hn⟩).mpr (Nat.zero_mod _))
      (iblk0 V c 0 ⟨0, hn⟩) (iblk0 V c 1 ⟨0, hn⟩) (iblk0 V c 2 ⟨0, hn⟩) b q).trans ?_
    unfold partialSum
    rw [Finset.sum_range_one]
    exact tile_eq V c ⟨0, hn⟩ b q
  | n + 1, hn, b, q => by
    have hN : cfg0.N = 16 := N_0
    have hB : ¬(⟨n + 1, hn⟩ : Fin cfg0.N).val % 16 = 0 := by dsimp only; omega
    refine (congrFun (outsAt0_B V c ⟨n + 1, hn⟩ hB) (ix2 b q)).trans ?_
    refine (out_B_apply c (grid0.coords ⟨n + 1, hn⟩) (ms0_0 ⟨n + 1, hn⟩) (hs0_0 ⟨n + 1, hn⟩) (ms0_1 ⟨n + 1, hn⟩)
      (hs0_1 ⟨n + 1, hn⟩) (ms0_2 ⟨n + 1, hn⟩) (hs0_2 ⟨n + 1, hn⟩) (ms0_3 ⟨n + 1, hn⟩) (hs0_3 ⟨n + 1, hn⟩)
      (fun h => hB ((hcond0_0 ⟨n + 1, hn⟩).mp h))
      (iblk0 V c 0 ⟨n + 1, hn⟩) (iblk0 V c 1 ⟨n + 1, hn⟩) (iblk0 V c 2 ⟨n + 1, hn⟩)
      (outsAt0 V c ((⟨n + 1, hn⟩ : Fin cfg0.N).val - 1) (Nat.lt_of_le_of_lt (Nat.sub_le _ _) (⟨n + 1, hn⟩ : Fin cfg0.N).isLt))
      b q).trans ?_
    unfold partialSum
    rw [Finset.sum_range_succ _ (n + 1)]
    exact congrArg₂ (· + ·) (outsAt_apply c n (Nat.lt_of_succ_lt hn) b q) (tile_eq V c ⟨n + 1, hn⟩ b q)

/-- Sixteen tiles of 256 tokens are the 4096 tokens. -/
theorem partialSum_last (H : S4x4096x2048.Idx → EReal) (Wt : S2048x512.Idx → EReal) (bk : S512.Idx → EReal)
    (b : Fin 4) (q : Fin 512) :
    partialSum H Wt bk 15 b q = ∑ k : Fin 4096, ((∑ d : Fin 2048, H (ix3 b k d) * Wt (ix2 d q)) + bk (ix1 q)) := by
  unfold partialSum
  refine (Cert.Lib.sum_fin_tiles (fun k => keyAt H Wt bk b q k) 256 16 (N := 4096) (by norm_num)).trans ?_
  refine Finset.sum_congr rfl fun k _ => ?_
  unfold keyAt
  rw [dif_pos k.isLt]

/-- After the last point the block is the sum over all tokens. -/
theorem outsAt_last (c : Dev nD) :
    outsAt0 (F := Ideal) V c t0_15.val t0_15.isLt = total (V c main_arg0) (V c main_v1) (V c main_arg4) := by
  funext j
  obtain ⟨b, q, rfl⟩ : ∃ (b : Fin 4) (q : Fin 512), j = ix2 b q := ⟨j 0, j 1, eq_ix2 j⟩
  exact (outsAt_apply V c 15 t0_15.isLt b q).trans (partialSum_last _ _ _ b q)

/-- The one write-back, after the last point, writes the sum over all tokens: the block is the whole array. -/
theorem flushed_eq (c : Dev nD) (t : Fin cfg0.N) (hf : (cfg0.win 3).flush t = true) :
    (dat0 V c).flushed 3 t
      = ((cfg0.win 3).blk t).view.read (Elt Ideal) (total (V c main_arg0) (V c main_v1) (V c main_arg4)) := by
  have hN : cfg0.N = 16 := N_0
  have h15 : t.val = 15 := by have := (flush0_3 t).mp hf; have := t.isLt; omega
  obtain rfl : t = t0_15 := Fin.ext h15
  show (cfg0.win 3).cut (grid0.coords t0_15) ((dat0 V c).after 3 t0_15) = _
  rw [after0_3, outsAt_last]
  have hz' : (fun a => win0_3.index t0_15 a * main_v4.ty.shape.size a) = fun _ => 0 :=
    funext fun a => by fin_cases a <;> decide
  exact (Memref.read_access_unit_zero (Elt Ideal) main_v4 hz' (fun a => by rw [congrFun hz' a]; simp)
    (total (V c main_arg0) (V c main_v1) (V c main_arg4))).symm

/-- THE FIRST SWEEP'S RESULT ARRAY: the projected keys summed over all tokens. -/
theorem final (c : Dev nD) :
    (dat0 V c).arrAt 3 cfg0.N = total (V c main_arg0) (V c main_v1) (V c main_arg4) :=
  (dat0 V c).arrAt_eq_of_cover 3 (total (V c main_arg0) (V c main_v1) (V c main_arg4)) (flushed_eq V c) fun i =>
    ⟨t0_15, (flush0_3 t0_15).mpr rfl, by
      show i ∈ ((View.whole main_v4).slice (win0_3.rect t0_15)).set
      rw [View.set_slice_whole, Rect.mem_set_unit]
      intro a
      have h0 : (i 0 : Nat) < 4 := (i 0).isLt
      have h1 : (i 1 : Nat) < 512 := (i 1).isLt
      match a with
      | ⟨0, _⟩ =>
        show win0_3.index t0_15 0 * win0_3.size 0 ≤ (i 0 : Nat)
          ∧ (i 0 : Nat) < win0_3.index t0_15 0 * win0_3.size 0 + win0_3.xsize (grid0.coords t0_15) 0
        rw [show win0_3.index t0_15 0 * win0_3.size 0 = 0 from by decide +kernel,
          show win0_3.xsize (grid0.coords t0_15) 0 = 4 from by decide +kernel]
        omega
      | ⟨1, _⟩ =>
        show win0_3.index t0_15 1 * win0_3.size 1 ≤ (i 1 : Nat)
          ∧ (i 1 : Nat) < win0_3.index t0_15 1 * win0_3.size 1 + win0_3.xsize (grid0.coords t0_15) 1
        rw [show win0_3.index t0_15 1 * win0_3.size 1 = 0 from by decide +kernel,
          show win0_3.xsize (grid0.coords t0_15) 1 = 512 from by decide +kernel]
        omega⟩

end Cert.KernelIdeal.KeySum

end
-- ==== Proof.ScoreBlock.lean ====
/-
  What one grid point of the second sweep leaves in its score block [4, 256], read at an index.

  At a point the body sees x0, the tile of 256 tokens of all four batch entries [4, 256, 2048], the query weights x1
  [2048, 512], the query bias x2 [512] and the mean keys x3 [4, 512]. Token p of batch entry b scores
      tileScore b p = (Σ_r ((Σ_d x0(b, p, d) · x1(d, r)) + x2(r)) · x3(b, r)) · c,
  its projected query paired with batch entry b's mean key and scaled by the literal c. The body spells this four times,
  one row of the block per batch entry (the mean key's row b is cut out, laid as a row and repeated down the tile);
  every copy is this one function of what it loads, and the four rows tile the block.
-/
import proofs.«162913_j36172214567085_1_alg».proof.Proof.Gen.KernelIdeal.Frame
import proofs.«162913_j36172214567085_1_alg».proof.Proof.KeyRow
import proofs.«162913_j36172214567085_1_alg».proof.Proof.LibRowStore
import Idealize.ShloMosaic.Lib.ValueLayout
import Idealize.ShloMosaic.Lib.Pipeline.Value

set_option maxRecDepth 16384

noncomputable section

namespace Cert.KernelIdeal.ScoreBlock

open Cert.KernelIdeal Cert.KernelIdeal.Gen Cert.KernelIdeal.KeyRow
open Idealize.ShloMosaic Idealize.ShloMosaic.TcCoe Idealize.ShloMosaic.ValueIdx Idealize.SL.Sem

/-- One batch entry's scores over a tile x [1, 256, 2048]: the projected queries paired with row b of the mean keys. -/
def rowScore (w : FVec Ideal S2048x512 .bf16) (bias : Vec Ideal S512 .f32) (mk : FVec Ideal S4x512 .f32) (b : Fin 4)
    (x : Vec Ideal S1x256x2048 .f32) (p : Fin 256) : EReal :=
  (∑ r : Fin 512, key w bias x p r * mk (ix2 b r)) * Ideal.ofBits .f32 0x3D3504F3#32

/-- The reduced axis put back: row p of a [256, 512] array at column r. -/
theorem lift_row (p : Fin 256) (r : Fin 512) :
    reduces_S256x512_S256.lift (ix1 p) r = (ix2 p r : S256x512.Idx) :=
  funext fun a => Fin.ext (by match a with | ⟨0, _⟩ => rfl | ⟨1, _⟩ => rfl)

/-- The scaled score vector [256] of one batch entry, at p. -/
theorem vec_apply (w : FVec Ideal S2048x512 .bf16) (bias : Vec Ideal S512 .f32) (mk : FVec Ideal S4x512 .f32)
    (k : Nat) (hk : k < 4) (hsl : S4x512.Slices ![k, 0] S1x512) (x : Vec Ideal S1x256x2048 .f32) (p : Fin 256) :
    mulf (multiReduction .add [1] S256
        (mulf (addf (matmul dot_S256x2048_S2048x512_S256x512_1_0_0_1_n_n none
                      (truncf .bf16 (shapeCast S256x2048 x shapeCasts_S1x256x2048_S256x2048) bitsLt_bf16_f32) w
                      (constant (F := Ideal) S256x512 .f32 0x00000000#32))
                    (broadcastTo S256x512 (shapeCast S1x512 bias shapeCasts_S512_S1x512) broadcasts_S1x512_S256x512))
              (broadcastTo S256x512
                (shapeCast S1x512 (shapeCast S512 (extractStridedSlice S1x512 ![k, 0] mk hsl) shapeCasts_S1x512_S512)
                  shapeCasts_S512_S1x512) broadcasts_S1x512_S256x512))
        0x00000000#32 reduces_S256x512_S256 (.inl rfl) rfl)
      (broadcast S256 (Scalar.ofBits (F := Ideal) .f32 0x3D3504F3#32)) (ix1 p)
      = rowScore w bias mk ⟨k, hk⟩ x p := by
  rw [mulf_apply, broadcast_apply]
  refine congrArg₂ (· * ·) ?_ rfl
  refine (Ideal.multiReduction_add_single _ 0x00000000#32 reduces_S256x512_S256 (.inl rfl) rfl (ix1 p)).trans ?_
  refine Finset.sum_congr rfl fun (r : Fin 512) _ => ?_
  refine (congrArg _ (lift_row p r)).trans ?_
  rw [mulf_apply]
  refine congrArg₂ (· * ·) (proj_apply w bias x p r) ?_
  rw [broadcastTo_1b_ab_apply _ _ p r, shapeCast_a_1a_apply _ _ (0 : Fin 1) r, shapeCast_1a_a_apply _ _ r]
  exact slice2_axis0_apply k mk hsl (0 : Fin 1) r ⟨k, hk⟩ (by simp)

/-- The weights' and the mean keys' casts to their own shapes change nothing. -/
theorem pay1_eq (w : Vec Ideal S2048x512 .bf16) : k1_pay1 (F := Ideal) w = w := shapeCast_self _ _
theorem pay2_eq (mk : Vec Ideal S4x512 .f32) : k1_pay2 (F := Ideal) mk = mk := shapeCast_self _ _

theorem pay3_apply (w : Vec Ideal S2048x512 .bf16) (bias : Vec Ideal S512 .f32) (mk : Vec Ideal S4x512 .f32)
    (x : Vec Ideal S1x256x2048 .f32) (p : Fin 256) :
    k1_pay3 (F := Ideal) w bias mk x (ix2 (0 : Fin 1) p) = rowScore (k1_pay1 w) bias (k1_pay2 mk) ⟨0, by decide⟩ x p :=
  (shapeCast_a_1a_apply _ shapeCasts_S256_S1x256 (0 : Fin 1) p).trans
    (vec_apply (k1_pay1 w) bias (k1_pay2 mk) 0 (by decide) slices_S4x512_o0_0_S1x512 x p)

theorem pay4_apply (w : Vec Ideal S2048x512 .bf16) (bias : Vec Ideal S512 .f32) (mk : Vec Ideal S4x512 .f32)
    (x : Vec Ideal S1x256x2048 .f32) (p : Fin 256) :
    k1_pay4 (F := Ideal) w bias mk x (ix1 p) = rowScore (k1_pay1 w) bias (k1_pay2 mk) ⟨1, by decide⟩ x p :=
  vec_apply (k1_pay1 w) bias (k1_pay2 mk) 1 (by decide) slices_S4x512_o1_0_S1x512 x p

theorem pay5_apply (v : FVec Ideal S256 .f32) (p : Fin 256) : k1_pay5 (F := Ideal) v (ix2 (0 : Fin 1) p) = v (ix1 p) :=
  shapeCast_a_1a_apply _ shapeCasts_S256_S1x256 (0 : Fin 1) p

theorem pay6_apply (w : FVec Ideal S2048x512 .bf16) (bias : Vec Ideal S512 .f32) (mk : FVec Ideal S4x512 .f32)
    (x : Vec Ideal S1x256x2048 .f32) (p : Fin 256) :
    k1_pay6 (F := Ideal) w bias mk x (ix2 (0 : Fin 1) p) = rowScore w bias mk ⟨2, by decide⟩ x p :=
  (shapeCast_a_1a_apply _ shapeCasts_S256_S1x256 (0 : Fin 1) p).trans
    (vec_apply w bias mk 2 (by decide) slices_S4x512_o2_0_S1x512 x p)

theorem pay7_apply (w : FVec Ideal S2048x512 .bf16) (bias : Vec Ideal S512 .f32) (mk : FVec Ideal S4x512 .f32)
    (x : Vec Ideal S1x256x2048 .f32) (p : Fin 256) :
    k1_pay7 (F := Ideal) w bias mk x (ix2 (0 : Fin 1) p) = rowScore w bias mk ⟨3, by decide⟩ x p :=
  (shapeCast_a_1a_apply _ shapeCasts_S256_S1x256 (0 : Fin 1) p).trans
    (vec_apply w bias mk 3 (by decide) slices_S4x512_o3_0_S1x512 x p)

/-- Token p of batch entry b of the tile: its projected query paired with the mean key, scaled. -/
def tileScore (x0 : Vec Ideal S4x256x2048 .f32) (x1 : Vec Ideal S2048x512 .bf16) (x2 : Vec Ideal S512 .f32)
    (x3 : Vec Ideal S4x512 .f32) (b : Fin 4) (p : Fin 256) : EReal :=
  (∑ r : Fin 512, ((∑ d : Fin 2048, x0 (ix3 b p d) * x1 (ix2 d r)) + x2 (ix1 r)) * x3 (ix2 b r))
    * Ideal.ofBits .f32 0x3D3504F3#32

theorem hz2 : (![0, 0] : Fin 2 → Nat) = fun _ => 0 := funext fun a => by fin_cases a <;> rfl
theorem hz1 : (![0] : Fin 1 → Nat) = fun _ => 0 := funext fun a => by fin_cases a; rfl

/-- A row's scores over what the body loads: the whole weights, bias and mean keys, and slab k of the tile. -/
theorem rowScore_loads (x0 : Vec Ideal S4x256x2048 .f32) (x1 : Vec Ideal S2048x512 .bf16) (x2 : Vec Ideal S512 .f32)
    (x3 : Vec Ideal S4x512 .f32) (k : Nat) (hk : k < 4)
    (inbW : ∀ a, (![0, 0] : Fin 2 → Nat) a + S2048x512.size a ≤ S2048x512.size a)
    (inbB : ∀ a, (![0] : Fin 1 → Nat) a + S512.size a ≤ S512.size a)
    (inbM : ∀ a, (![0, 0] : Fin 2 → Nat) a + S4x512.size a ≤ S4x512.size a)
    (inbS : ∀ a, (![k, 0, 0] : Fin 3 → Nat) a + S1x256x2048.size a ≤ S4x256x2048.size a) (p : Fin 256) :
    rowScore (k1_pay1 (View.ld x1 (Rect.unit (s := S2048x512) ![0, 0] S2048x512.size inbW)))
        (View.ld x2 (Rect.unit (s := S512) ![0] S512.size inbB))
        (k1_pay2 (View.ld x3 (Rect.unit (s := S4x512) ![0, 0] S4x512.size inbM))) ⟨k, hk⟩
        (View.ld x0 (Rect.unit (s := S4x256x2048) ![k, 0, 0] S1x256x2048.size inbS)) p
      = tileScore x0 x1 x2 x3 ⟨k, hk⟩ p := by
  rw [pay1_eq, pay2_eq, View.ld_unit_zero (S := S2048x512) hz2 inbW, View.ld_unit_zero (S := S512) hz1 inbB,
    View.ld_unit_zero (S := S4x512) hz2 inbM]
  unfold rowScore key tileScore
  refine congrArg (· * _) (Finset.sum_congr rfl fun r _ => congrArg (· * _) (congrArg (· + _)
    (Finset.sum_congr rfl fun d _ => ?_)))
  rw [Cert.Lib.ld_slab x0 k hk inbS p d]

/-- THE BLOCK a point leaves, at (b, p). -/
theorem out1_apply (x0 : Vec Ideal S4x256x2048 .f32) (x1 : Vec Ideal S2048x512 .bf16) (x2 : Vec Ideal S512 .f32)
    (x3 : Vec Ideal S4x512 .f32) (b : Fin 4) (p : Fin 256) :
    out1_4 (F := Ideal) x0 x1 x2 x3 (ix2 b p) = tileScore x0 x1 x2 x3 b p := by
  unfold out1_4
  match b with
  | ⟨0, hb⟩ =>
    refine (Cert.Lib.canon_row_miss 3 _ _ _ ⟨0, hb⟩ (by show (0 : ℕ) ≠ _; decide) p).trans ?_
    refine (Cert.Lib.canon_row_miss 2 _ _ _ ⟨0, hb⟩ (by show (0 : ℕ) ≠ _; decide) p).trans ?_
    refine (Cert.Lib.canon_row_miss 1 _ _ _ ⟨0, hb⟩ (by show (0 : ℕ) ≠ _; decide) p).trans ?_
    refine (Cert.Lib.canon_row_hit 0 hb _ _ _ p).trans ?_
    refine (pay3_apply _ _ _ _ p).trans ?_
    exact rowScore_loads x0 x1 x2 x3 0 hb _ _ _ _ p
  | ⟨1, hb⟩ =>
    refine (Cert.Lib.canon_row_miss 3 _ _ _ ⟨1, hb⟩ (by show (1 : ℕ) ≠ _; decide) p).trans ?_
    refine (Cert.Lib.canon_row_miss 2 _ _ _ ⟨1, hb⟩ (by show (1 : ℕ) ≠ _; decide) p).trans ?_
    refine (Cert.Lib.canon_row_hit 1 hb _ _ _ p).trans ?_
    refine (pay5_apply _ p).trans ?_
    refine (pay4_apply _ _ _ _ p).trans ?_
    exact rowScore_loads x0 x1 x2 x3 1 hb _ _ _ _ p
  | ⟨2, hb⟩ =>
    refine (Cert.Lib.canon_row_miss 3 _ _ _ ⟨2, hb⟩ (by show (2 : ℕ) ≠ _; decide) p).trans ?_
    refine (Cert.Lib.canon_row_hit 2 hb _ _ _ p).trans ?_
    refine (pay6_apply _ _ _ _ p).trans ?_
    exact rowScore_loads x0 x1 x2 x3 2 hb _ _ _ _ p
  | ⟨3, hb⟩ =>
    refine (Cert.Lib.canon_row_hit 3 hb _ _ _ p).trans ?_
    refine (pay7_apply _ _ _ _ p).trans ?_
    exact rowScore_loads x0 x1 x2 x3 3 hb _ _ _ _ p

end Cert.KernelIdeal.ScoreBlock

end
-- ==== Proof.ScoreValue.lean ====
/-
  The second sweep's result: every token's score.

  Point t of the sweep sees tokens 256·t … 256·t + 255 of every batch entry, the whole query weights, the whole query
  bias and the whole mean-key array, and writes back the block [4, 256] of those tokens' scores: columns 256·t …
  256·t + 255 of the result [4, 4096]. Sixteen such blocks tile the token axis, so the result array ends holding, at
  (b, t), token t's projected query paired with batch entry b's mean key and scaled.
-/
import proofs.«162913_j36172214567085_1_alg».proof.Proof.Gen.KernelIdeal.Frame
import proofs.«162913_j36172214567085_1_alg».proof.Proof.ScoreBlock
import Idealize.ShloMosaic.Lib.Pipeline.Value

set_option maxRecDepth 16384

noncomputable section

namespace Cert.KernelIdeal.ScoreValue

open Cert.KernelIdeal Cert.KernelIdeal.Gen Cert.KernelIdeal.ScoreBlock
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Every token's score from the hidden array H, the transposed query weights Wt [2048, 512], the query bias and the
    mean keys M [4, 512], as an array over [4, 4096]. -/
def scoreArr (H : S4x4096x2048.Idx → EReal) (Wt : S2048x512.Idx → EReal) (bq : S512.Idx → EReal)
    (M : S4x512.Idx → EReal) : S4x4096.Idx → EReal :=
  fun j => (∑ r : Fin 512, ((∑ d : Fin 2048, H (ix3 (j 0) (j 1) d) * Wt (ix2 d r)) + bq (ix1 r)) * M (ix2 (j 0) r))
    * Ideal.ofBits .f32 0x3D3504F3#32

/-- The windows' block indices at a point: the tile and the score block move along the token axis, the rest stay. -/
theorem idx1 : ∀ t : Fin cfg1.N, win1_0.index t 0 = 0 ∧ win1_0.index t 1 = t.val ∧ win1_0.index t 2 = 0
    ∧ win1_1.index t 0 = 0 ∧ win1_1.index t 1 = 0 ∧ win1_2.index t 0 = 0 ∧ win1_3.index t 0 = 0 ∧ win1_3.index t 1 = 0
    ∧ win1_4.index t 0 = 0 ∧ win1_4.index t 1 = t.val :=
  (by decide +kernel : ∀ t : Fin grid1.N, win1_0.index t 0 = 0 ∧ win1_0.index t 1 = t.val ∧ win1_0.index t 2 = 0
    ∧ win1_1.index t 0 = 0 ∧ win1_1.index t 1 = 0 ∧ win1_2.index t 0 = 0 ∧ win1_3.index t 0 = 0 ∧ win1_3.index t 1 = 0
    ∧ win1_4.index t 0 = 0 ∧ win1_4.index t 1 = t.val)

/-- The tile at point t, at (b, p, d), is the hidden array at token 256·t + p. -/
theorem blk0_apply (c : Dev nD) (t : Fin cfg1.N) (b : Fin 4) (p : Fin 256) (d : Fin 2048)
    (hp : 256 * t.val + p.val < 4096) :
    (iblk1 V c 0 t : Vec Ideal S4x256x2048 .f32) (ix3 b p d)
      = (V c main_arg0 : S4x4096x2048.Idx → EReal) (ix3 b (⟨256 * t.val + p.val, hp⟩ : Fin 4096) d) := by
  unfold iblk1
  rw [View.read_apply]
  show V c main_arg0 _ = V c main_arg0 _
  refine congrArg (V c main_arg0) (funext fun a => Fin.ext ?_)
  match a with
  | ⟨0, _⟩ => show win1_0.index t 0 * 4 + 1 * b.val = b.val; rw [(idx1 t).1]; omega
  | ⟨1, _⟩ => show win1_0.index t 1 * 256 + 1 * p.val = 256 * t.val + p.val; rw [(idx1 t).2.1]; omega
  | ⟨2, _⟩ => show win1_0.index t 2 * 2048 + 1 * d.val = d.val; rw [(idx1 t).2.2.1]; omega

/-- The weights' block at any point is the whole array. -/
theorem blk1_apply (c : Dev nD) (t : Fin cfg1.N) (d : Fin 2048) (r : Fin 512) :
    (iblk1 V c 1 t : Vec Ideal S2048x512 .bf16) (ix2 d r) = (V c main_v3 : S2048x512.Idx → EReal) (ix2 d r) := by
  unfold iblk1
  rw [View.read_apply]
  show V c main_v3 _ = V c main_v3 _
  refine congrArg (V c main_v3) (funext fun a => Fin.ext ?_)
  match a with
  | ⟨0, _⟩ => show win1_1.index t 0 * 2048 + 1 * d.val = d.val; rw [(idx1 t).2.2.2.1]; omega
  | ⟨1, _⟩ => show win1_1.index t 1 * 512 + 1 * r.val = r.val; rw [(idx1 t).2.2.2.2.1]; omega

/-- The bias' block at any point is the whole array. -/
theorem blk2_apply (c : Dev nD) (t : Fin cfg1.N) (r : Fin 512) :
    (iblk1 V c 2 t : Vec Ideal S512 .f32) (ix1 r) = (V c main_arg2 : S512.Idx → EReal) (ix1 r) := by
  unfold iblk1
  rw [View.read_apply]
  show V c main_arg2 _ = V c main_arg2 _
  refine congrArg (V c main_arg2) (funext fun a => Fin.ext ?_)
  match a with
  | ⟨0, _⟩ => show win1_2.index t 0 * 512 + 1 * r.val = r.val; rw [(idx1 t).2.2.2.2.2.1]; omega

/-- The mean keys' block at any point is the whole array. -/
theorem blk3_apply (c : Dev nD) (t : Fin cfg1.N) (b : Fin 4) (r : Fin 512) :
    (iblk1 V c 3 t : Vec Ideal S4x512 .f32) (ix2 b r) = (V c main_v6 : S4x512.Idx → EReal) (ix2 b r) := by
  unfold iblk1
  rw [View.read_apply]
  show V c main_v6 _ = V c main_v6 _
  refine congrArg (V c main_v6) (funext fun a => Fin.ext ?_)
  match a with
  | ⟨0, _⟩ => show win1_3.index t 0 * 4 + 1 * b.val = b.val; rw [(idx1 t).2.2.2.2.2.2.1]; omega
  | ⟨1, _⟩ => show win1_3.index t 1 * 512 + 1 * r.val = r.val; rw [(idx1 t).2.2.2.2.2.2.2.1]; omega

/-- WHAT POINT t WRITES BACK is block t of the score array. -/
theorem flushed_eq (c : Dev nD) (t : Fin cfg1.N) :
    (dat1 V c).flushed 4 t
      = ((cfg1.win 4).blk t).view.read (Elt Ideal) (scoreArr (V c main_arg0) (V c main_v3) (V c main_arg2) (V c main_v6)) := by
  show (cfg1.win 4).cut (grid1.coords t) ((dat1 V c).after 4 t) = _
  rw [after1_4]
  have hN : t.val < 16 := lt_of_lt_of_eq t.isLt N_1
  funext j
  obtain ⟨b, p, rfl⟩ : ∃ (b : Fin 4) (p : Fin 256), j = ix2 b p := ⟨j 0, j 1, eq_ix2 j⟩
  have hp : 256 * t.val + p.val < 4096 := by have := p.isLt; omega
  have he : ((cfg1.win 4).blk t).view.emb (ix2 b p) = (ix2 b (⟨256 * t.val + p.val, hp⟩ : Fin 4096) : S4x4096.Idx) :=
    funext fun a => Fin.ext (by
      match a with
      | ⟨0, _⟩ => show win1_4.index t 0 * 4 + 1 * b.val = b.val; rw [(idx1 t).2.2.2.2.2.2.2.2.1]; omega
      | ⟨1, _⟩ => show win1_4.index t 1 * 256 + 1 * p.val = 256 * t.val + p.val; rw [(idx1 t).2.2.2.2.2.2.2.2.2]; omega)
  show out1_4 (iblk1 V c 0 t) (iblk1 V c 1 t) (iblk1 V c 2 t) (iblk1 V c 3 t) (ix2 b p)
    = scoreArr (V c main_arg0) (V c main_v3) (V c main_arg2) (V c main_v6) (((cfg1.win 4).blk t).view.emb (ix2 b p))
  rw [he]
  refine (out1_apply (iblk1 V c 0 t) (iblk1 V c 1 t) (iblk1 V c 2 t) (iblk1 V c 3 t) b p).trans ?_
  unfold tileScore scoreArr
  exact congrArg (· * _) (Finset.sum_congr rfl fun r _ => congrArg₂ (· * ·)
    (congrArg₂ (· + ·) (Finset.sum_congr rfl fun d _ => congrArg₂ (· * ·) (blk0_apply V c t b p d hp) (blk1_apply V c t d r))
      (blk2_apply V c t r))
    (blk3_apply V c t b r))

/-- An index of the result is in point t's block iff each coordinate is in the block's range on its axis. -/
theorem mem_blk (t : Fin cfg1.N) (i : S4x4096.Idx) :
    i ∈ ((cfg1.win 4).blk t).view.set ↔ ∀ a : Fin 2, win1_4.index t a * S4x256.size a ≤ (i a).val
      ∧ (i a).val < win1_4.index t a * S4x256.size a + S4x256.size a := by
  show i ∈ ((View.whole main_v7).slice (win1_4.rect t)).set ↔ _
  rw [View.set_slice_whole, Rect.mem_set_unit]
  exact Iff.rfl

/-- Every index of the result is in the block of the point that holds its token. -/
theorem cover (i : S4x4096.Idx) :
    ∃ t : Fin cfg1.N, (cfg1.win 4).flush t = true ∧ i ∈ ((cfg1.win 4).blk t).view.set := by
  have hi0 : (i 0).val < 4 := (i 0).isLt
  have hi1 : (i 1).val < 4096 := (i 1).isLt
  have hN : cfg1.N = 16 := N_1
  obtain ⟨t, ht⟩ : ∃ t : Fin cfg1.N, t.val = (i 1).val / 256 := ⟨⟨(i 1).val / 256, by rw [hN]; omega⟩, rfl⟩
  refine ⟨t, flush1_4 t, ?_⟩
  rw [mem_blk]
  have e8 : win1_4.index t 0 = 0 := (idx1 t).2.2.2.2.2.2.2.2.1
  have e9 : win1_4.index t 1 = t.val := (idx1 t).2.2.2.2.2.2.2.2.2
  intro a
  match a with
  | ⟨0, _⟩ =>
    show win1_4.index t 0 * 4 ≤ (i 0).val ∧ (i 0).val < win1_4.index t 0 * 4 + 4
    rw [e8]; omega
  | ⟨1, _⟩ =>
    show win1_4.index t 1 * 256 ≤ (i 1).val ∧ (i 1).val < win1_4.index t 1 * 256 + 256
    rw [e9, ht]; omega

/-- THE SECOND SWEEP'S RESULT ARRAY: every token's score. -/
theorem final (c : Dev nD) :
    (dat1 V c).arrAt 4 cfg1.N = scoreArr (V c main_arg0) (V c main_v3) (V c main_arg2) (V c main_v6) :=
  (dat1 V c).arrAt_eq_of_cover 4 (scoreArr (V c main_arg0) (V c main_v3) (V c main_arg2) (V c main_v6))
    (fun t _ => flushed_eq V c t) cover

end Cert.KernelIdeal.ScoreValue

end
-- ==== Proof.Boundary.lean ====
/-
  What each grid sweep finds in its arrays.

  Before the first sweep the host transposes each weight matrix [512, 2048] to [2048, 512] and changes its format (the
  identity on extended reals); nothing else is written, so the first sweep finds the hidden array and the key bias as
  launched and the transposed key weights. Between the sweeps the host divides the first sweep's result by the token
  count; the first sweep writes only its own result array. So the second sweep finds the hidden array and the query
  bias as launched, the transposed query weights, and the key sums divided by the count.
-/
import proofs.«162913_j36172214567085_1_alg».proof.Proof.Gen.KernelIdeal.Frame
import Idealize.ShloMosaic.Lib.StableHlo.Run
import Idealize.ShloMosaic.Lib.ValueLayout

set_option maxRecDepth 16384

noncomputable section

namespace Cert.KernelIdeal.Boundary

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A weight matrix as the host lays it out for a sweep: transposed, its format changed. -/
abbrev laidOut (W : FVec Ideal S512x2048 .f32) : FVec Ideal S2048x512 .bf16 :=
  truncf (F := Ideal) .bf16 (transpose S2048x512 [1, 0] W transposes_S512x2048_S2048x512_1_0) bitsLt_bf16_f32

/-- The laid-out weights at (d, r) are the weights at (r, d). -/
theorem laidOut_apply (W : FVec Ideal S512x2048 .f32) (d : Fin 2048) (r : Fin 512) :
    laidOut W (ix2 d r) = W (ix2 r d) := by
  unfold laidOut
  rw [truncf_apply, transpose_ix2_apply]

theorem V1_arg0 (c : Dev nD) : V1 m ρ c main_arg0 = m ((c : Thread nD τ).loc main_arg0) := by
  show StableHlo.after hostOps0 (W0 m ρ c) (Proc.devRef .tc main_arg0) = _
  after_results

theorem V1_arg4 (c : Dev nD) : V1 m ρ c main_arg4 = m ((c : Thread nD τ).loc main_arg4) := by
  show StableHlo.after hostOps0 (W0 m ρ c) (Proc.devRef .tc main_arg4) = _
  after_results

theorem V1_v1 (c : Dev nD) : V1 m ρ c main_v1 = laidOut (m ((c : Thread nD τ).loc main_arg3)) := by
  show StableHlo.after hostOps0 (W0 m ρ c) (Proc.devRef .tc main_v1) = _
  after_results

/-- The first sweep leaves the hidden array as it found it. -/
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (V1_arg0 m ρ c)

theorem V3_arg0 (c : Dev nD) : V3 m ρ c main_arg0 = m ((c : Thread nD τ).loc main_arg0) := by
  show StableHlo.after hostOps1 (W2 m ρ c) (Proc.devRef .tc main_arg0) = _
  after_results
  exact W2_arg0 m ρ c

theorem V3_arg2 (c : Dev nD) : V3 m ρ c main_arg2 = m ((c : Thread nD τ).loc main_arg2) := by
  show StableHlo.after hostOps1 (W2 m ρ c) (Proc.devRef .tc main_arg2) = _
  after_results
  refine (W2_of_ne m ρ c main_arg2 (fun w => by fin_cases w <;> decide)).trans ?_
  show StableHlo.after hostOps0 (W0 m ρ c) (Proc.devRef .tc main_arg2) = _
  after_results

theorem V3_v3 (c : Dev nD) : V3 m ρ c main_v3 = laidOut (m ((c : Thread nD τ).loc main_arg1)) := by
  show StableHlo.after hostOps1 (W2 m ρ c) (Proc.devRef .tc main_v3) = _
  after_results
  refine (W2_of_ne m ρ c main_v3 (fun w => by fin_cases w <;> decide)).trans ?_
  show StableHlo.after hostOps0 (W0 m ρ c) (Proc.devRef .tc main_v3) = _
  after_results

/-- The mean keys: the first sweep's result divided, entry by entry, by the token count. -/
theorem V3_v6 (c : Dev nD) :
    V3 m ρ c main_v6 = Host.divf (F := Ideal) ((dat0 (V1 m ρ) c).arrAt 3 cfg0.N)
      (broadcastInDim S4x512 ![] bcast_S_S4x512 (constant (F := Ideal) S_ .f32 0x45800000#32)) := by
  show StableHlo.after hostOps1 (W2 m ρ c) (Proc.devRef .tc main_v6) = _
  after_results
  exact congrArg (Host.divf (F := Ideal) · _) (W2_arr m ρ c 3)

end Cert.KernelIdeal.Boundary

end
-- ==== Proof.LibRealVar.lean ====
/-
  Facts about extended reals that happen to be reals: a finite sum of reals is the real sum; sums, products,
  differences, quotients by a nonzero real, maxima and the reciprocal square root of a positive real stay real;
  and the variance identity: for a real column y_1 … y_n with mean μ = (∑ y) / n,
      (∑ (y_p − μ)²) / n = (∑ y_p²) / n − μ²,
  which is distributivity and therefore needs every y_p to be a real. The deviation form is also nonnegative.
-/
import Idealize.ShloMosaic.PureOps.Ideal

noncomputable section

namespace Cert.RealMath

open Idealize.ShloMosaic

/-- x is (the coercion of) a real number. -/
def IsReal (x : EReal) : Prop := ∃ r : ℝ, x = (r : EReal)

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_coe (r : ℝ) : IsReal (r : EReal) := ⟨r, rfl⟩

theorem isReal_zero : IsReal 0 := ⟨0, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact isReal_add (h a (Finset.mem_insert_self a s)) (ih fun i hi => h i (Finset.mem_insert_of_mem hi))

theorem isReal_div {x : EReal} {c : ℝ} (hx : IsReal x) (hc : c ≠ 0) : IsReal (Ideal.div x (c : EReal)) := by
  obtain ⟨a, rfl⟩ := hx
  exact ⟨a * (1 / c), by rw [Ideal.div_coe hc, ← EReal.coe_mul]⟩

theorem isReal_max {x y : EReal} (hx : IsReal x) (hy : IsReal y) : IsReal (max x y) := by
  rcases le_total x y with h | h
  · rw [max_eq_right h]; exact hy
  · rw [max_eq_left h]; exact hx

theorem isReal_rsqrt {r : ℝ} (h : 0 < r) : IsReal (Ideal.rsqrt (r : EReal)) :=
  ⟨(Real.sqrt r)⁻¹, by rw [Ideal.rsqrt_coe, if_neg (not_lt.mpr h.le), if_neg h.ne']⟩

section Variance

variable {n : ℕ} (y : Fin n → EReal) (c : ℝ)

/-- The variance identity on a real column. -/
theorem var_identity (hy : ∀ p, IsReal (y p)) (hc : c ≠ 0) (hn : (n : ℝ) = c) :
    Ideal.div (∑ p, (y p - Ideal.div (∑ p, y p) (c : EReal)) * (y p - Ideal.div (∑ p, y p) (c : EReal))) (c : EReal)
      = Ideal.div (∑ p, y p * y p) (c : EReal)
        - Ideal.div (∑ p, y p) (c : EReal) * Ideal.div (∑ p, y p) (c : EReal) := by
  choose yr hyr using hy
  simp only [hyr]
  have hS : ∑ p, ((yr p : ℝ) : EReal) = ((∑ p, yr p : ℝ) : EReal) := coe_sum _ _
  have hSS : ∑ p, ((yr p : ℝ) : EReal) * ((yr p : ℝ) : EReal) = ((∑ p, yr p * yr p : ℝ) : EReal) := by
    rw [← coe_sum]; exact Finset.sum_congr rfl fun p _ => (EReal.coe_mul _ _).symm
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc, ← EReal.coe_mul, hμ]
  rw [hM, hSS]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc, Ideal.div_coe hc, ← EReal.coe_mul, ← EReal.coe_mul, ← EReal.coe_mul, ← EReal.coe_sub]
  refine congrArg _ ?_
  have h1 : ∀ p, (yr p - μ) * (yr p - μ) = yr p * yr p - 2 * μ * yr p + μ * μ := fun p => by ring
  simp only [h1, Finset.sum_add_distrib, Finset.sum_sub_distrib, ← Finset.mul_sum, Finset.sum_const,
    Finset.card_univ, Fintype.card_fin, nsmul_eq_mul]
  rw [hn, hμ]
  field_simp
  ring

/-- The mean of squared deviations of a real column, over a positive count, is a nonnegative real. -/
theorem var_nonneg (hy : ∀ p, IsReal (y p)) (hc : 0 < c) :
    ∃ v : ℝ, 0 ≤ v ∧ Ideal.div (∑ p, (y p - Ideal.div (∑ p, y p) (c : EReal)) * (y p - Ideal.div (∑ p, y p) (c : EReal)))
      (c : EReal) = (v : EReal) := by
  choose yr hyr using hy
  simp only [hyr]
  have hS : ∑ p, ((yr p : ℝ) : EReal) = ((∑ p, yr p : ℝ) : EReal) := coe_sum _ _
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc.ne', ← EReal.coe_mul, hμ]
  rw [hM]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc.ne', ← EReal.coe_mul]
  exact ⟨_, mul_nonneg (Finset.sum_nonneg fun p _ => mul_self_nonneg _) (by positivity), rfl⟩

end Variance

end Cert.RealMath

end
-- ==== Proof.Spec.lean ====
/-
  The token scores, as two formulas of the five argument arrays, and the law that makes them one.

  hidden is [4, 4096, 2048] (batch, token, model axis), Wq and Wk are [512, 2048], bq and bk are [512]. A token's
  projection through (W, bias) is   proj b t r = (Σ_d hidden(b, t, d) · W(r, d)) + bias(r).

  The kernel first sums the projected keys of a batch entry over all its tokens,  keySum b r = Σ_s projK b s r,  divides
  by the token count, and then scores token t as   (Σ_r projQ b t r · (keySum b r / 4096)) · c.
  The reference forms every pair's logit (Σ_r projQ b t r · projK b s r) · c  and takes the mean over the keys s:
      (0 + Σ_s (Σ_r projQ b t r · projK b s r) · c) / 4096.
  The two agree by distributivity and an exchange of the two sums — which holds on real numbers, and fails at
  infinities; so the law is stated for entries that are reals. The scale c is one float literal, the same word on
  both sides: only that it denotes SOME real is used. The count 4096.0 denotes the real 4096.
-/
import proofs.«162913_j36172214567085_1_alg».proof.Proof.LibRealVar
import Idealize.ShloMosaic.Lib.ValueIdx
import Idealize.ShloMosaic.PureOps.Ideal
import Idealize.ShloMosaic.PureOps.Ideal.Laws

noncomputable section

namespace Cert.Router

open Idealize.ShloMosaic Idealize.ShloMosaic.ValueIdx Cert.RealMath

abbrev Hid := (⟨3, ![4, 4096, 2048]⟩ : Shape).Idx → EReal
abbrev Wgt := (⟨2, ![512, 2048]⟩ : Shape).Idx → EReal
abbrev Bias := (⟨1, ![512]⟩ : Shape).Idx → EReal

/-- The scale literal both programs multiply by. -/
def scale : EReal := Ideal.ofBits .f32 0x3D3504F3#32
/-- The token count literal both programs divide by. -/
def count : EReal := Ideal.ofBits .f32 0x45800000#32

/-- The count literal denotes the real 4096. -/
theorem count_eq : count = ((4096 : ℝ) : EReal) := by
  unfold count
  simp [Ideal.ofBits, Ideal.ieee, -EReal.coe_mul]; norm_num

/-- The scale literal denotes a real: its exponent field is neither all ones nor zero. -/
theorem scale_real : ∃ c : ℝ, scale = (c : EReal) := by
  unfold scale
  show ∃ c : ℝ, Ideal.ieee 8 23 (0x3D3504F3#32 : BitVec 32) = (c : EReal)
  unfold Ideal.ieee
  dsimp only
  rw [if_neg (by decide), if_neg (by decide)]
  exact ⟨_, rfl⟩

/-- Token (b, t) projected through (W, bias), component r. -/
def proj (h : Hid) (W : Wgt) (bias : Bias) (b : Fin 4) (t : Fin 4096) (r : Fin 512) : EReal :=
  (∑ d : Fin 2048, h (ix3 b t d) * W (ix2 r d)) + bias (ix1 r)

/-- The projected keys of batch entry b summed over its tokens. -/
def keySum (h : Hid) (Wk : Wgt) (bk : Bias) (b : Fin 4) (r : Fin 512) : EReal :=
  ∑ s : Fin 4096, proj h Wk bk b s r

/-- The kernel's score of token (b, t). -/
def scoreK (h : Hid) (Wq : Wgt) (bq : Bias) (Wk : Wgt) (bk : Bias) (b : Fin 4) (t : Fin 4096) : EReal :=
  (∑ r : Fin 512, proj h Wq bq b t r * Ideal.div (keySum h Wk bk b r) count) * scale

/-- The reference's score of token (b, t). -/
def scoreR (h : Hid) (Wq : Wgt) (bq : Bias) (Wk : Wgt) (bk : Bias) (b : Fin 4) (t : Fin 4096) : EReal :=
  Ideal.div (Ideal.ofBits .f32 0x00000000#32
      + ∑ s : Fin 4096, (∑ r : Fin 512, proj h Wq bq b t r * proj h Wk bk b s r) * scale) count

/-- THE LAW, over abstract finite index types: the mean over s of the scaled pairings is the scaled pairing with the
    mean — for real entries, a real scale and a nonzero real count. -/
theorem mean_pairing {R S : ℕ} (q : Fin R → EReal) (k : Fin S → Fin R → EReal) (c n : ℝ) (hn : n ≠ 0)
    (hq : ∀ r, IsReal (q r)) (hk : ∀ s r, IsReal (k s r)) :
    (∑ r, q r * Ideal.div (∑ s, k s r) (n : EReal)) * (c : EReal)
      = Ideal.div (0 + ∑ s, (∑ r, q r * k s r) * (c : EReal)) (n : EReal) := by
  choose qr hqr using hq
  choose kr hkr using hk
  simp only [hqr, hkr]
  have e1 : ∀ r, ∑ s, ((kr s r : ℝ) : EReal) = ((∑ s, kr s r : ℝ) : EReal) := fun r => coe_sum _ _
  have e2 : ∀ s, ∑ r, ((qr r : ℝ) : EReal) * ((kr s r : ℝ) : EReal) = ((∑ r, qr r * kr s r : ℝ) : EReal) :=
    fun s => by rw [← coe_sum]; exact Finset.sum_congr rfl fun r _ => (EReal.coe_mul _ _).symm
  have hL : ∀ r, ((qr r : ℝ) : EReal) * Ideal.div (∑ s, ((kr s r : ℝ) : EReal)) (n : EReal)
      = ((qr r * ((∑ s, kr s r) * (1 / n)) : ℝ) : EReal) :=
    fun r => by rw [e1, Ideal.div_coe hn, ← EReal.coe_mul, ← EReal.coe_mul]
  have hR : ∀ s, (∑ r, ((qr r : ℝ) : EReal) * ((kr s r : ℝ) : EReal)) * (c : EReal)
      = (((∑ r, qr r * kr s r) * c : ℝ) : EReal) :=
    fun s => by rw [e2, ← EReal.coe_mul]
  simp only [hL, hR]
  rw [coe_sum, coe_sum, zero_add, Ideal.div_coe hn, ← EReal.coe_mul, ← EReal.coe_mul]
  refine congrArg _ ?_
  simp only [Finset.mul_sum, Finset.sum_mul]
  rw [Finset.sum_comm]
  exact Finset.sum_congr rfl fun s _ => Finset.sum_congr rfl fun r _ => by ring

/-- A projection of real entries is real. -/
theorem proj_real (h : Hid) (W : Wgt) (bias : Bias) (hh : ∀ i, IsReal (h i)) (hW : ∀ i, IsReal (W i))
    (hb : ∀ i, IsReal (bias i)) (b : Fin 4) (t : Fin 4096) (r : Fin 512) : IsReal (proj h W bias b t r) :=
  isReal_add (isReal_sum _ _ fun d _ => isReal_mul (hh _) (hW _)) (hb _)

/-- On real arguments the kernel's score is the reference's. -/
theorem scoreK_eq_scoreR (h : Hid) (Wq : Wgt) (bq : Bias) (Wk : Wgt) (bk : Bias)
    (hh : ∀ i, IsReal (h i)) (hWq : ∀ i, IsReal (Wq i)) (hbq : ∀ i, IsReal (bq i))
    (hWk : ∀ i, IsReal (Wk i)) (hbk : ∀ i, IsReal (bk i)) (b : Fin 4) (t : Fin 4096) :
    scoreK h Wq bq Wk bk b t = scoreR h Wq bq Wk bk b t := by
  obtain ⟨c, hc⟩ := scale_real
  unfold scoreK scoreR keySum
  rw [hc, count_eq, Ideal.ofBits_zero_f32]
  exact mean_pairing (fun r => proj h Wq bq b t r) (fun s r => proj h Wk bk b s r) c 4096 (by norm_num)
    (fun r => proj_real h Wq bq hh hWq hbq b t r) (fun s r => proj_real h Wk bk hh hWk hbk b s r)

end Cert.Router

end
-- ==== Proof.Result.lean ====
/-
  The idealized kernel's result, as the kernel's formula of the five argument arrays.

  The second sweep's result array at (b, t) is token t's projected query — through the transposed query weights,
  so the weights at (r, d) — paired with the mean key of batch entry b; the mean key is the first sweep's sum of
  projected keys — through the transposed key weights — divided by the token count. Reading each array the sweeps
  find back to the launch contents makes this the kernel's score formula of the arguments.
-/
import proofs.«162913_j36172214567085_1_alg».proof.Proof.WholeRun
import proofs.«162913_j36172214567085_1_alg».proof.Proof.KeySum
import proofs.«162913_j36172214567085_1_alg».proof.Proof.ScoreValue
import proofs.«162913_j36172214567085_1_alg».proof.Proof.Boundary
import proofs.«162913_j36172214567085_1_alg».proof.Proof.Spec
import Idealize.ShloMosaic.Lib.IdealHost

set_option maxRecDepth 16384

noncomputable section

namespace Cert.KernelIdeal.Result

open Cert.KernelIdeal Cert.KernelIdeal.Gen Cert.KernelIdeal.Boundary
open Idealize.ShloMosaic Idealize.ShloMosaic.TcCoe Idealize.ShloMosaic.ValueIdx Idealize.SL.Sem

variable (m : (ℓ : Loc nD τ sig) → Buf (Elt Ideal) ℓ) (ρ : Dev nD → PrngReg)

/-- The kernel's scores of all tokens, as an array over [4, 4096]. -/
def scores (h : Cert.Router.Hid) (Wq : Cert.Router.Wgt) (bq : Cert.Router.Bias) (Wk : Cert.Router.Wgt)
    (bk : Cert.Router.Bias) : S4x4096.Idx → EReal :=
  fun j => Cert.Router.scoreK h Wq bq Wk bk (j 0) (j 1)

/-- The mean keys the second sweep finds, at (b, r). -/
theorem meanKey_apply (H : S4x4096x2048.Idx → EReal) (Wk : FVec Ideal S512x2048 .f32) (bk : S512.Idx → EReal)
    (b : Fin 4) (r : Fin 512) :
    Host.divf (F := Ideal) (KeySum.total H (laidOut Wk) bk)
        (broadcastInDim S4x512 ![] bcast_S_S4x512 (constant (F := Ideal) S_ .f32 0x45800000#32)) (ix2 b r)
      = Ideal.div (Cert.Router.keySum H Wk bk b r) Cert.Router.count := by
  show Ideal.div (KeySum.total H (laidOut Wk) bk (ix2 b r))
    (broadcastInDim S4x512 ![] bcast_S_S4x512 (constant (F := Ideal) S_ .f32 0x45800000#32) (ix2 b r)) = _
  rw [broadcastInDim_scalar_apply]
  refine congrArg₂ Ideal.div ?_ rfl
  unfold KeySum.total Cert.Router.keySum Cert.Router.proj
  refine Finset.sum_congr rfl fun s _ => congrArg (· + _) (Finset.sum_congr rfl fun d _ => ?_)
  rw [laidOut_apply]

/-- THE RESULT BUFFER after the run, as the kernel's formula of the launch contents of the arguments. -/
theorem result_value (c : Dev nD) :
    W4 m ρ c (Proc.devRef .tc main_v7)
      = scores (m ((c : Thread nD τ).loc main_arg0)) (m ((c : Thread nD τ).loc main_arg1))
          (m ((c : Thread nD τ).loc main_arg2)) (m ((c : Thread nD τ).loc main_arg3)) (m ((c : Thread nD τ).loc main_arg4)) := by
  rw [Whole.result_eq, ScoreValue.final (V3 m ρ) c, V3_arg0, V3_arg2, V3_v3, V3_v6, KeySum.final (V1 m ρ) c, V1_arg0,
    V1_v1, V1_arg4]
  funext j
  obtain ⟨b, t, rfl⟩ : ∃ (b : Fin 4) (t : Fin 4096), j = ix2 b t := ⟨j 0, j 1, eq_ix2 j⟩
  unfold ScoreValue.scoreArr scores Cert.Router.scoreK
  refine congrArg₂ (· * ·) (Finset.sum_congr rfl fun r _ => congrArg₂ (· * ·) ?_ (meanKey_apply _ _ _ b r)) rfl
  unfold Cert.Router.proj
  refine congrArg (· + _) (Finset.sum_congr rfl fun d _ => ?_)
  rw [laidOut_apply]

/-- THE KERNEL'S RUN: every weakly fair execution terminates, nothing faulting, with the result buffer at the kernel's
    scores of the arguments and the arguments unchanged. -/
theorem run : θ_run defs (onTc (τ := τ) (main (F := Ideal))) ⟨m, fun _ => 0, ρ⟩ (fun r => ∀ c : Dev nD,
      r.2.mem ((c.tc : Thread nD τ).loc main_v7)
        = scores (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_value m ρ c), (h c).2⟩) (Whole.run m ρ)

end Cert.KernelIdeal.Result

end
-- ==== Proof.RefValue.lean ====
/-
  The reference's result, read at an index, is the reference's formula of the argument arrays.

  The reference projects every token through (Wq, bq) and (Wk, bk) — a contraction over the model axis plus the bias
  repeated along batch and token —, pairs every query token t with every key token s of the same batch entry by a
  contraction over the 512 components, scales each pairing by the scale literal, sums over s from zero, and divides by
  the token count.
-/
import proofs.«162913_j36172214567085_1_alg».proof.Proof.Gen.ReferenceIdeal.Read
import proofs.«162913_j36172214567085_1_alg».proof.Proof.Spec

noncomputable section

namespace Cert.ReferenceIdeal.RefValue

open Cert.ReferenceIdeal Cert.ReferenceIdeal.Gen Cert.ReferenceIdeal.Read Cert.Router
open Idealize.ShloMosaic Idealize.ShloMosaic.ValueIdx

variable (x0 : (⟨S4x4096x2048, .f32⟩ : BufTy).Contents (Elt Ideal)) (x1 : (⟨S512x2048, .f32⟩ : BufTy).Contents (Elt Ideal))
  (x2 : (⟨S512, .f32⟩ : BufTy).Contents (Elt Ideal)) (x3 : (⟨S512x2048, .f32⟩ : BufTy).Contents (Elt Ideal))
  (x4 : (⟨S512, .f32⟩ : BufTy).Contents (Elt Ideal))

/-- The query projection plus bias at (b, t, r). -/
theorem v3_apply (b : Fin 4) (t : Fin 4096) (r : Fin 512) :
    val_main_v3 (F := Ideal) x0 x1 x2 (ix3 b t r) = proj x0 x1 x2 b t r := by
  rw [val_main_v3_apply, val_main_v0_apply, val_main_v2_apply, val_main_v1_apply]
  unfold proj
  refine congrArg₂ (· + ·) (Finset.sum_congr rfl fun d _ => congrArg₂ (· * ·) (congrArg x0 ?_) (congrArg x1 ?_)) (congrArg x2 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The key projection plus bias at (b, s, r). -/
theorem v7_apply (b : Fin 4) (s : Fin 4096) (r : Fin 512) :
    val_main_v7 (F := Ideal) x0 x3 x4 (ix3 b s r) = proj x0 x3 x4 b s r := by
  rw [val_main_v7_apply, val_main_v4_apply, val_main_v6_apply, val_main_v5_apply]
  unfold proj
  refine congrArg₂ (· + ·) (Finset.sum_congr rfl fun d _ => congrArg₂ (· * ·) (congrArg x0 ?_) (congrArg x3 ?_)) (congrArg x4 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The scaled pairing of query token t with key token s at (b, t, s). -/
theorem v10_apply (b : Fin 4) (t s : Fin 4096) :
    val_main_v10 (F := Ideal) x0 x1 x2 x3 x4 (ix3 b t s)
      = (∑ r : Fin 512, proj x0 x1 x2 b t r * proj x0 x3 x4 b s r) * scale := by
  rw [val_main_v10_apply, val_main_v8_apply, val_main_v9_apply, val_main_cst_apply]
  refine congrArg (· * scale) (Finset.sum_congr rfl fun r _ => ?_)
  have el : lidx_main_v8 (ix3 b t s) r = ix3 b t r :=
    funext fun a => Fin.ext (by match a with | ⟨0, _⟩ => rfl | ⟨1, _⟩ => rfl | ⟨2, _⟩ => rfl)
  have er : ridx_main_v8 (ix3 b t s) r = ix3 b s r :=
    funext fun a => Fin.ext (by match a with | ⟨0, _⟩ => rfl | ⟨1, _⟩ => rfl | ⟨2, _⟩ => rfl)
  rw [el, er, v3_apply, v7_apply]

/-- THE REFERENCE'S RESULT at (b, t). -/
theorem result_apply (b : Fin 4) (t : Fin 4096) :
    val_main_v13 (F := Ideal) x0 x1 x2 x3 x4 (ix2 b t) = scoreR x0 x1 x2 x3 x4 b t := by
  rw [val_main_v13_apply, val_main_v11_apply, val_main_v12_apply, val_main_cst_1_apply, val_main_cst_0_apply]
  unfold scoreR
  refine congrArg (Ideal.div · count) (congrArg (Ideal.ofBits .f32 0x00000000#32 + ·) (Finset.sum_congr rfl fun s _ => ?_))
  have ei : idx_main_v11 (ix2 b t) s = ix3 b t s :=
    funext fun a => Fin.ext (by match a with | ⟨0, _⟩ => rfl | ⟨1, _⟩ => rfl | ⟨2, _⟩ => rfl)
  rw [ei]
  exact v10_apply x0 x1 x2 x3 x4 b t s

end Cert.ReferenceIdeal.RefValue

end
-- ==== Proof.LibAllFinite.lean ====
/-
  From a "finite inputs" precondition to real numbers, for an array of any shape over the extended reals.
  Such a precondition is, per float argument, an all-reduction (a reduce by `and` of a one-bit array into a
  result of one index) of the comparison |x| < +∞, entry by entry. An extended real whose absolute value
  max x (−x) is below the word of +∞ is neither −∞ nor +∞ (|−∞| = |+∞| = +∞), hence a real number; so when the
  all-reduction is one, every entry of the argument is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.AllFinite

open Idealize.ShloMosaic Idealize.ShloMosaic.ValueIdx

/-- A rank-0 array has one index. -/
instance scalarIdxSubsingleton : Subsingleton (⟨0, ![]⟩ : Shape).Idx := ⟨fun a b => funext fun d => d.elim0⟩

/-- An extended real whose absolute value is below the word of +∞ is a real number. -/
theorem real_of_abs_lt_top (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- `jnp.all(|x| < +∞)` being one — the host's all-reduction, over any axes, into one index, of the comparison of
    the host's absolute value of `x` with the broadcast word of +∞ — makes every entry of `x` a real number. -/
theorem real_of_all {s : Shape} {axes : List (Fin s.rank)} (x : s.Idx → EReal)
    (hb : (⟨0, ![]⟩ : Shape).BroadcastsInDim s ![]) (hr : s.ReducesTo axes ⟨0, ![]⟩)
    (hu : 0 < (⟨0, ![]⟩ : Shape).numel)
    (e : Host.reduce IntOp.andi (cmpf (F := Ideal) (φ := .f32) .olt (Host.absf (F := Ideal) (φ := .f32) x)
        (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  have hi := Host.reduce_andi_all _ _ hr hu ix0 e i
  have hc : broadcastInDim s ![] hb (constant (F := Ideal) ⟨0, ![]⟩ .f32 0x7F800000#32) i
      = Ideal.ofBits .f32 0x7F800000#32 := broadcastInDim_scalar_apply hb _ i
  refine real_of_abs_lt_top (x i) ?_
  rw [← hc]
  exact hi

end Cert.Lib.AllFinite

end
-- ==== Proof.Finite.lean ====
/-
  From the precondition to real numbers.

  The precondition is the conjunction, over the five float arguments, of "every entry has absolute value below +∞".
  A conjunction of one-bit words is one exactly when each conjunct is; each conjunct is an all-reduction of an entrywise
  comparison, which is one exactly when every entry passes; and an extended real whose absolute value is below +∞ is a
  real number. So under the precondition every entry of every argument is a real.
-/
import proofs.«162913_j36172214567085_1_alg».proof.Pre_finite_inputs
import proofs.«162913_j36172214567085_1_alg».proof.Proof.Gen.Pre_finite_inputs
import proofs.«162913_j36172214567085_1_alg».proof.Proof.LibAllFinite
import proofs.«162913_j36172214567085_1_alg».proof.Proof.LibRealVar
import Idealize.ShloMosaic.Lib.Affine

noncomputable section

namespace Cert.Pre_finite_inputs.Reals

open Cert.Pre_finite_inputs Idealize.ShloMosaic Idealize.ShloMosaic.ValueIdx Cert.Lib.AllFinite Cert.RealMath

/-- Under the precondition every entry of every argument is a real number. -/
theorem reals_of_pre (a0 : FVec Ideal S4x4096x2048 .f32) (a1 : FVec Ideal S512x2048 .f32) (a2 : FVec Ideal S512 .f32)
    (a3 : FVec Ideal S512x2048 .f32) (a4 : FVec Ideal S512 .f32)
    (h : fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ix0
  dsimp only [fn, fn_part1, andi] at h0
  obtain ⟨h0123, e4⟩ := IntOp.andi_eq_one.mp h0
  obtain ⟨h012, e3⟩ := IntOp.andi_eq_one.mp h0123
  obtain ⟨h01, e2⟩ := IntOp.andi_eq_one.mp h012
  obtain ⟨e0, e1⟩ := IntOp.andi_eq_one.mp h01
  exact ⟨real_of_all a0 _ _ _ e0, real_of_all a1 _ _ _ e1, real_of_all a2 _ _ _ e2, real_of_all a3 _ _ _ e3,
    real_of_all a4 _ _ _ e4⟩

end Cert.Pre_finite_inputs.Reals

end
-- ==== Proof.lean ====
/-
  A token-importance score: each token's projected query paired with the mean of its batch entry's projected keys.

  hidden is [4, 4096, 2048] (batch, token, model axis); Wq, Wk are [512, 2048]; bq, bk are [512]. With
      projQ b t r = (Σ_d hidden(b, t, d) · Wq(r, d)) + bq(r),     projK b s r = (Σ_d hidden(b, s, d) · Wk(r, d)) + bk(r),
  the kernel computes, in two sweeps over tiles of 256 tokens,
      keySum b r = Σ_s projK b s r            (accumulated tile by tile in one block, written back after the last tile),
      score b t  = (Σ_r projQ b t r · (keySum b r / 4096)) · c,
  while the reference forms every pair's scaled logit and takes the mean over the keys:
      score b t  = (0 + Σ_s (Σ_r projQ b t r · projK b s r) · c) / 4096.
  At the ideal values a change of float format is the identity and a matrix product into a zero accumulator is the
  plain sum, so the two differ only by distributivity and an exchange of the sums over r and s. That law holds for
  real numbers and fails at infinities: the precondition (every input entry finite) is what makes every entry a real.
  The scale c is the same float literal in both programs and is never evaluated; the count 4096.0 denotes 4096.

  The two sweeps' frames and the kernel's run are over the generated launch side; the idealization rewrote no
  operation, so that conjunct is trivial; the reference's frame is its run with the result dropped.
-/
import proofs.«162913_j36172214567085_1_alg».proof.Defs
import proofs.«162913_j36172214567085_1_alg».proof.Proof.Gen.Kernel
import proofs.«162913_j36172214567085_1_alg».proof.Proof.Gen.Kernel.Skeleton
import proofs.«162913_j36172214567085_1_alg».proof.Proof.Gen.Kernel.Launch
import proofs.«162913_j36172214567085_1_alg».proof.Proof.Gen.Kernel.Points
import proofs.«162913_j36172214567085_1_alg».proof.Proof.Gen.Kernel.Frame
import proofs.«162913_j36172214567085_1_alg».proof.Proof.Gen.KernelIdeal
import proofs.«162913_j36172214567085_1_alg».proof.Proof.Gen.KernelIdeal.Skeleton
import proofs.«162913_j36172214567085_1_alg».proof.Proof.Gen.KernelIdeal.Launch
import proofs.«162913_j36172214567085_1_alg».proof.Proof.Gen.KernelIdeal.Points
import proofs.«162913_j36172214567085_1_alg».proof.Proof.Gen.KernelIdeal.Frame
import proofs.«162913_j36172214567085_1_alg».proof.Proof.Gen.ReferenceIdeal
import proofs.«162913_j36172214567085_1_alg».proof.Proof.Gen.Pre_finite_inputs
import proofs.«162913_j36172214567085_1_alg».proof.Proof.Gen.ReferenceIdeal.Run
import proofs.«162913_j36172214567085_1_alg».proof.Proof.Gen.ReferenceIdeal.Read
import proofs.«162913_j36172214567085_1_alg».proof.Proof.Result
import proofs.«162913_j36172214567085_1_alg».proof.Proof.RefValue
import proofs.«162913_j36172214567085_1_alg».proof.Proof.Finite
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values the kernel's result is its score formula of the arguments and the reference's is its own; on
    arguments that agree and are real, entry by entry, the two formulas are equal. -/
theorem algebraic : Cert.algebraic_KernelIdeal_ReferenceIdeal := by
  intro m ρ m' ρ' hpre hagree
  refine ⟨fun c => Cert.KernelIdeal.Result.scores
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v13_eq]
  obtain ⟨r0, r1, r2, r3, r4⟩ := Cert.Pre_finite_inputs.Reals.reals_of_pre _ _ _ _ _ (hpre c)
  funext j
  obtain ⟨b, t, rfl⟩ : ∃ (b : Fin 4) (t : Fin 4096), j = ix2 b t := ⟨j 0, j 1, eq_ix2 j⟩
  exact (Cert.ReferenceIdeal.RefValue.result_apply _ _ _ _ _ b t).trans
    (Cert.Router.scoreK_eq_scoreR _ _ _ _ _ r0 r1 r2 r3 r4 b t).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
